-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v88)) (v2 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S600000 : Shape := ⟨1, ![600000]⟩
abbrev S100000 : Shape := ⟨1, ![100000]⟩
abbrev S99000 : Shape := ⟨1, ![99000]⟩
abbrev S1000 : Shape := ⟨1, ![1000]⟩
abbrev S768x128 : Shape := ⟨2, ![768, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg12 : FVec F S128x1 .f32) (main_arg13 : FVec F S1 .f32) (main_v33 : IVec S_ 1) : IVec S_ 1 :=
  let main_v34 : FVec F S128x1 .f32 := Host.absf main_arg12
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg13
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg10
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg12 main_arg13 main_v33

def fn {F : FTy → Type} [FloatOps F] (main_arg0 : FVec F S100000x768 .f32) (main_arg1 : IVec S600000 32) (main_arg2 : IVec S600000 32) (main_arg3 : IVec S100000 32) (main_arg4 : IVec S99000 32) (main_arg5 : IVec S1000 32) (main_arg6 : FVec F S768x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S768x128 .f32 := Host.absf main_arg6
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg7
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg8
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg9 main_arg10 main_arg11 main_arg12 main_arg13 main_v13 main_v16
-- ==== Kernel.lean ====
abbrev S100000x768 : Shape := ⟨2, ![100000, 768]⟩
abbrev S600000 : Shape := ⟨1, ![600000]⟩
abbrev S100000 : Shape := ⟨1, ![100000]⟩
abbrev S99000 : Shape := ⟨1, ![99000]⟩
abbrev S1000 : Shape := ⟨1, ![1000]⟩
abbrev S768x128 : Shape := ⟨2, ![768, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S700000 : Shape := ⟨1, ![700000]⟩
abbrev S_ : Shape := ⟨0, ![]⟩
abbrev S700000x1 : Shape := ⟨2, ![700000, 1]⟩
abbrev S1x128 : Shape := ⟨2, ![1, 128]⟩
abbrev S100000x128 : Shape := ⟨2, ![100000, 128]⟩
abbrev S5000x768 : Shape := ⟨2, ![5000, 768]⟩
abbrev S5000x128 : Shape := ⟨2, ![5000, 128]⟩
abbrev S700000x128 : Shape := ⟨2, ![700000, 128]⟩
abbrev S99000x1 : Shape := ⟨2, ![99000, 1]⟩
abbrev S99000x128 : Shape := ⟨2, ![99000, 128]⟩
abbrev S1x1 : Shape := ⟨2, ![1, 1]⟩
abbrev S1000x1 : Shape := ⟨2, ![1000, 1]⟩
abbrev S1000x128 : Shape := ⟨2, ![1000, 128]⟩

abbrev nBuf : Space → Nat
  | .hbm => 134
  | .vmem => 32
  | .smem => 0
  | _ => 0

abbrev hbmTy0_0 (i : Nat) : BufTy := match i % 128 with
  | 0 => ⟨S100000x768, .f32⟩
  | 1 => ⟨S600000, .i32⟩
  | 2 => ⟨S600000, .i32⟩
  | 3 => ⟨S100000, .i32⟩
  | 4 => ⟨S99000, .i32⟩
  | 5 => ⟨S1000, .i32⟩
  | 6 => ⟨S768x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S100000, .i32⟩
  | 15 => ⟨S700000, .i32⟩
  | 16 => ⟨S700000, .i32⟩
  | 17 => ⟨S_, .f32⟩
  | 18 => ⟨S700000, .f32⟩
  | 19 => ⟨S_, .f32⟩
  | 20 => ⟨S100000, .f32⟩
  | 21 => ⟨S700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S700000, .i32⟩
  | 33 => ⟨S700000, .i1⟩
  | 34 => ⟨S_, .i32⟩
  | 35 => ⟨S700000, .i32⟩
  | 36 => ⟨S700000, .i32⟩
  | 37 => ⟨S700000, .i32⟩
  | 38 => ⟨S700000x1, .i32⟩
  | 39 => ⟨S700000, .f32⟩
  | 40 => ⟨S700000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S700000, .f32⟩
  | 51 => ⟨S1x128, .f32⟩
  | 52 => ⟨S100000x128, .f32⟩
  | 53 => ⟨S_, .f32⟩
  | 54 => ⟨S128, .f32⟩
  | 55 => ⟨S1x128, .f32⟩
  | 56 => ⟨S100000x128, .f32⟩
  | 57 => ⟨S_, .i32⟩
  | 58 => ⟨S700000, .i32⟩
  | 59 => ⟨S700000, .i1⟩
  | 60 => ⟨S_, .i32⟩
  | 61 => ⟨S700000, .i32⟩
  | 62 => ⟨S700000, .i32⟩
  | 63 => ⟨S700000, .i32⟩
  | 64 => ⟨S700000x1, .i32⟩
  | 65 => ⟨S700000x128, .f32⟩
  | 66 => ⟨S700000x1, .f32⟩
  | 67 => ⟨S700000x128, .f32⟩
  | 68 => ⟨S700000x128, .f32⟩
  | 69 => ⟨S_, .f32⟩
  | 70 => ⟨S100000x128, .f32⟩
  | 71 => ⟨S700000x1, .i32⟩
  | 72 => ⟨S100000x128, .f32⟩
  | 73 => ⟨S1x128, .f32⟩
  | 74 => ⟨S100000x128, .f32⟩
  | 75 => ⟨S_, .f32⟩
  | 76 => ⟨S128, .f32⟩
  | 77 => ⟨S1x128, .f32⟩
  | 78 => ⟨S100000x128, .f32⟩
  | 79 => ⟨S_, .i32⟩
  | 80 => ⟨S700000, .i32⟩
  | 81 => ⟨S700000, .i1⟩
  | 82 => ⟨S_, .i32⟩
  | 83 => ⟨S700000, .i32⟩
  | 84 => ⟨S700000, .i32⟩
  | 85 => ⟨S700000, .i32⟩
  | 86 => ⟨S700000x1, .i32⟩
  | 87 => ⟨S700000x128, .f32⟩
  | 88 => ⟨S700000x1, .f32⟩
  | 89 => ⟨S700000x128, .f32⟩
  | 90 => ⟨S700000x128, .f32⟩
  | 91 => ⟨S_, .f32⟩
  | 92 => ⟨S100000x128, .f32⟩
  | 93 => ⟨S700000x1, .i32⟩
  | 94 => ⟨S100000x128, .f32⟩
  | 95 => ⟨S1x128, .f32⟩
  | 96 => ⟨S100000x128, .f32⟩
  | 97 => ⟨S_, .i32⟩
  | 98 => ⟨S99000, .i32⟩
  | 99 => ⟨S99000, .i1⟩
  | 100 => ⟨S_, .i32⟩
  | 101 => ⟨S99000, .i32⟩
  | 102 => ⟨S99000, .i32⟩
  | 103 => ⟨S99000, .i32⟩
  | 104 => ⟨S99000x1, .i32⟩
  | 105 => ⟨S99000x128, .f32⟩
  | 106 => ⟨S99000x1, .f32⟩
  | 107 => ⟨S1x1, .f32⟩
  | 108 => ⟨S99000x1, .f32⟩
  | 109 => ⟨S99000x1, .f32⟩
  | 110 => ⟨S99000, .f32⟩
  | 111 => ⟨S_, .i32⟩
  | 112 => ⟨S1000, .i32⟩
  | 113 => ⟨S1000, .i1⟩
  | 114 => ⟨S_, .i32⟩
  | 115 => ⟨S1000, .i32⟩
  | 116 => ⟨S1000, .i32⟩
  | 117 => ⟨S1000, .i32⟩
  | 118 => ⟨S1000x1, .i32⟩
  | 119 => ⟨S1000x128, .f32⟩
  | 120 => ⟨S1000x1, .f32⟩
  | 121 => ⟨S1x1, .f32⟩
  | 122 => ⟨S1000x1, .f32⟩
  | 123 => ⟨S1000x1, .f32⟩
  | 124 => ⟨S1000, .f32⟩
  | 125 => ⟨S_, .i32⟩
  | 126 => ⟨S99000, .i32⟩
  | 127 => ⟨S99000, .i1⟩
  | _ => ⟨S100000x768, .f32⟩

abbrev hbmTy0_1 (i : Nat) : BufTy := match i % 128 with
  | 0 => ⟨S_, .i32⟩
  | 1 => ⟨S99000, .i32⟩
  | 2 => ⟨S99000, .i32⟩
  | 3 => ⟨S99000, .i32⟩
  | 4 => ⟨S99000x1, .i32⟩
  | 5 => ⟨S99000, .i32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | .local _ .vmem, ⟨0, _⟩ => ⟨S5000x768, .f32⟩
  | .local _ .vmem, ⟨1, _⟩ => ⟨S5000x768, .f32⟩
  | .local _ .vmem, ⟨2, _⟩ => ⟨S768x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_16 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_18 : Ref sig .tc := ⟨.hbm, 125, rfl⟩
abbrev main_v89 : Ref sig .tc := ⟨.hbm, 126, rfl⟩
abbrev main_v90 : Ref sig .tc := ⟨.hbm, 127, rfl⟩
abbrev main_c_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S128_S1x128 : S128.ShapeCasts S1x128
  inb_S5000x768_S5000x768_0_0 : ∀ a, (![0, 0] : Fin 2 → Nat) a + S5000x768.size a ≤ S5000x768.size a
  h_S5000x768 : 0 < S5000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S128 : S_.BroadcastsInDim S128 (![] : Fin 0 → Fin S128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S_S99000 : S_.BroadcastsInDim S99000 (![] : Fin 0 → Fin S99000.rank)
  bcast_S99000_S99000x1_0 : S99000.BroadcastsInDim S99000x1 (![0] : Fin 1 → Fin S99000x1.rank)
  bcast_S1_S1x1_1 : S1.BroadcastsInDim S1x1 (![1] : Fin 1 → Fin S1x1.rank)
  bcast_S1x1_S99000x1_0_1 : S1x1.BroadcastsInDim S99000x1 (![0, 1] : Fin 2 → Fin S99000x1.rank)
  shapeCasts_S99000x1_S99000 : S99000x1.ShapeCasts S99000
  bcast_S_S1000 : S_.BroadcastsInDim S1000 (![] : Fin 0 → Fin S1000.rank)
  bcast_S1000_S1000x1_0 : S1000.BroadcastsInDim S1000x1 (![0] : Fin 1 → Fin S1000x1.rank)
  bcast_S1x1_S1000x1_0_1 : S1x1.BroadcastsInDim S1000x1 (![0, 1] : Fin 2 → Fin S1000x1.rank)
  shapeCasts_S1000x1_S1000 : S1000x1.ShapeCasts S1000
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x768_S768x128_S5000x128_1_0_0_1_n_n_wf : DotDims.WF S5000x768 S768x128 S5000x128 [1] [0] [0] [1] [] []
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S99000x1_S99000x128_1_0_n_n_0_1_1128_wf : GatherDims.WF S100000x128 S99000x1 S99000x128 [1] [0] [] [0] [] 1 ![1, 128]
  dot_S99000x128_S128x1_S99000x1_1_0_0_1_n_n_wf : DotDims.WF S99000x128 S128x1 S99000x1 [1] [0] [0] [1] [] []
  gather_S100000x128_S1000x1_S1000x128_1_0_n_n_0_1_1128_wf : GatherDims.WF S100000x128 S1000x1 S1000x128 [1] [0] [] [0] [] 1 ![1, 128]
  dot_S1000x128_S128x1_S1000x1_1_0_0_1_n_n_wf : DotDims.WF S1000x128 S128x1 S1000x1 [1] [0] [0] [1] [] []
  gather_S100000_S99000x1_S99000_n_0_n_n_0_1_1_wf : GatherDims.WF S100000 S99000x1 S99000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x768.size a ≤ S100000x768.size a
  hwx0_0 : ∀ i : grid0.Coords, EltTy.bits .f32 = 32 ∨ (Rect.block (s := S100000x768) S5000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x768_S768x128_S5000x128_1_0_0_1_n_n : DotDims S5000x768 S768x128 S5000x128 where
  lhsContracting := [1]
  rhsContracting := [0]
  lhsNonContracting := [0]
  rhsNonContracting := [1]
  lhsBatch := []
  rhsBatch := []
  wf := dot_S5000x768_S768x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S99000x1_S99000x128_1_0_n_n_0_1_1128 : GatherDims S100000x128 S99000x1 S99000x128 where
  offsetDims := [1]
  collapsedSliceDims := [0]
  operandBatchingDims := []
  startIndicesBatchingDims := []
  startIndexMap := [0]
  indexVectorDim := 1
  sliceSizes := ![1, 128]
  wf := gather_S100000x128_S99000x1_S99000x128_1_0_n_n_0_1_1128_wf
def dot_S99000x128_S128x1_S99000x1_1_0_0_1_n_n : DotDims S99000x128 S128x1 S99000x1 where
  lhsContracting := [1]
  rhsContracting := [0]
  lhsNonContracting := [0]
  rhsNonContracting := [1]
  lhsBatch := []
  rhsBatch := []
  wf := dot_S99000x128_S128x1_S99000x1_1_0_0_1_n_n_wf
def gather_S100000x128_S1000x1_S1000x128_1_0_n_n_0_1_1128 : GatherDims S100000x128 S1000x1 S1000x128 where
  offsetDims := [1]
  collapsedSliceDims := [0]
  operandBatchingDims := []
  startIndicesBatchingDims := []
  startIndexMap := [0]
  indexVectorDim := 1
  sliceSizes := ![1, 128]
  wf := gather_S100000x128_S1000x1_S1000x128_1_0_n_n_0_1_1128_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf
def gather_S100000_S99000x1_S99000_n_0_n_n_0_1_1 : GatherDims S100000 S99000x1 S99000 where
  offsetDims := []
  collapsedSliceDims := [0]
  operandBatchingDims := []
  startIndicesBatchingDims := []
  startIndexMap := [0]
  indexVectorDim := 1
  sliceSizes := ![1]
  wf := gather_S100000_S99000x1_S99000_n_0_n_n_0_1_1_wf

abbrev win0_0 : Pipeline.Window sig grid0 :=
  Pipeline.Window.ofSpec (Memref.whole main_arg0) S5000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v64) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x768 : Shape := ⟨2, ![100000, 768]⟩
abbrev S600000 : Shape := ⟨1, ![600000]⟩
abbrev S100000 : Shape := ⟨1, ![100000]⟩
abbrev S99000 : Shape := ⟨1, ![99000]⟩
abbrev S1000 : Shape := ⟨1, ![1000]⟩
abbrev S768x128 : Shape := ⟨2, ![768, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S1x128 : Shape := ⟨2, ![1, 128]⟩
abbrev S700000x128 : Shape := ⟨2, ![700000, 128]⟩
abbrev S99000x1 : Shape := ⟨2, ![99000, 1]⟩
abbrev S99000x128 : Shape := ⟨2, ![99000, 128]⟩
abbrev S1x1 : Shape := ⟨2, ![1, 1]⟩
abbrev S1000x1 : Shape := ⟨2, ![1000, 1]⟩
abbrev S1000x128 : Shape := ⟨2, ![1000, 128]⟩

abbrev nBuf : Space → Nat
  | .hbm => 140
  | .vmem => 0
  | .smem => 0
  | _ => 0

abbrev hbmTy0_0 (i : Nat) : BufTy := match i % 128 with
  | 0 => ⟨S100000x768, .f32⟩
  | 1 => ⟨S600000, .i32⟩
  | 2 => ⟨S600000, .i32⟩
  | 3 => ⟨S100000, .i32⟩
  | 4 => ⟨S99000, .i32⟩
  | 5 => ⟨S1000, .i32⟩
  | 6 => ⟨S768x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S100000, .i32⟩
  | 15 => ⟨S700000, .i32⟩
  | 16 => ⟨S700000, .i32⟩
  | 17 => ⟨S_, .f32⟩
  | 18 => ⟨S700000, .f32⟩
  | 19 => ⟨S_, .f32⟩
  | 20 => ⟨S100000, .f32⟩
  | 21 => ⟨S700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S700000, .i32⟩
  | 33 => ⟨S700000, .i1⟩
  | 34 => ⟨S_, .i32⟩
  | 35 => ⟨S700000, .i32⟩
  | 36 => ⟨S700000, .i32⟩
  | 37 => ⟨S700000, .i32⟩
  | 38 => ⟨S700000x1, .i32⟩
  | 39 => ⟨S700000, .f32⟩
  | 40 => ⟨S700000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S700000, .f32⟩
  | 51 => ⟨S100000x128, .f32⟩
  | 52 => ⟨S1x128, .f32⟩
  | 53 => ⟨S100000x128, .f32⟩
  | 54 => ⟨S100000x128, .f32⟩
  | 55 => ⟨S100000x128, .f32⟩
  | 56 => ⟨S_, .i32⟩
  | 57 => ⟨S700000, .i32⟩
  | 58 => ⟨S700000, .i1⟩
  | 59 => ⟨S_, .i32⟩
  | 60 => ⟨S700000, .i32⟩
  | 61 => ⟨S700000, .i32⟩
  | 62 => ⟨S700000, .i32⟩
  | 63 => ⟨S700000x1, .i32⟩
  | 64 => ⟨S700000x128, .f32⟩
  | 65 => ⟨S700000x1, .f32⟩
  | 66 => ⟨S700000x128, .f32⟩
  | 67 => ⟨S700000x128, .f32⟩
  | 68 => ⟨S_, .f32⟩
  | 69 => ⟨S100000x128, .f32⟩
  | 70 => ⟨S700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S100000x128, .f32⟩
  | 80 => ⟨S_, .i32⟩
  | 81 => ⟨S700000, .i32⟩
  | 82 => ⟨S700000, .i1⟩
  | 83 => ⟨S_, .i32⟩
  | 84 => ⟨S700000, .i32⟩
  | 85 => ⟨S700000, .i32⟩
  | 86 => ⟨S700000, .i32⟩
  | 87 => ⟨S700000x1, .i32⟩
  | 88 => ⟨S700000x128, .f32⟩
  | 89 => ⟨S700000x1, .f32⟩
  | 90 => ⟨S700000x128, .f32⟩
  | 91 => ⟨S700000x128, .f32⟩
  | 92 => ⟨S_, .f32⟩
  | 93 => ⟨S100000x128, .f32⟩
  | 94 => ⟨S700000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S_, .i32⟩
  | 104 => ⟨S99000, .i32⟩
  | 105 => ⟨S99000, .i1⟩
  | 106 => ⟨S_, .i32⟩
  | 107 => ⟨S99000, .i32⟩
  | 108 => ⟨S99000, .i32⟩
  | 109 => ⟨S99000, .i32⟩
  | 110 => ⟨S99000x1, .i32⟩
  | 111 => ⟨S99000x128, .f32⟩
  | 112 => ⟨S99000x1, .f32⟩
  | 113 => ⟨S1x1, .f32⟩
  | 114 => ⟨S99000x1, .f32⟩
  | 115 => ⟨S99000x1, .f32⟩
  | 116 => ⟨S99000, .f32⟩
  | 117 => ⟨S_, .i32⟩
  | 118 => ⟨S1000, .i32⟩
  | 119 => ⟨S1000, .i1⟩
  | 120 => ⟨S_, .i32⟩
  | 121 => ⟨S1000, .i32⟩
  | 122 => ⟨S1000, .i32⟩
  | 123 => ⟨S1000, .i32⟩
  | 124 => ⟨S1000x1, .i32⟩
  | 125 => ⟨S1000x128, .f32⟩
  | 126 => ⟨S1000x1, .f32⟩
  | 127 => ⟨S1x1, .f32⟩
  | _ => ⟨S100000x768, .f32⟩

abbrev hbmTy0_1 (i : Nat) : BufTy := match i % 128 with
  | 0 => ⟨S1000x1, .f32⟩
  | 1 => ⟨S1000x1, .f32⟩
  | 2 => ⟨S1000, .f32⟩
  | 3 => ⟨S_, .i32⟩
  | 4 => ⟨S99000, .i32⟩
  | 5 => ⟨S99000, .i1⟩
  | 6 => ⟨S_, .i32⟩
  | 7 => ⟨S99000, .i32⟩
  | 8 => ⟨S99000, .i32⟩
  | 9 => ⟨S99000, .i32⟩
  | 10 => ⟨S99000x1, .i32⟩
  | 11 => ⟨S99000, .i32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_c_12 : Ref sig .tc := ⟨.hbm, 103, rfl⟩
abbrev main_v69 : Ref sig .tc := ⟨.hbm, 104, rfl⟩
abbrev main_v70 : Ref sig .tc := ⟨.hbm, 105, rfl⟩
abbrev main_c_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_14 : Ref sig .tc := ⟨.hbm, 117, rfl⟩
abbrev main_v81 : Ref sig .tc := ⟨.hbm, 118, rfl⟩
abbrev main_v82 : Ref sig .tc := ⟨.hbm, 119, rfl⟩
abbrev main_c_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_16 : Ref sig .tc := ⟨.hbm, 131, rfl⟩
abbrev main_v93 : Ref sig .tc := ⟨.hbm, 132, rfl⟩
abbrev main_v94 : Ref sig .tc := ⟨.hbm, 133, rfl⟩
abbrev main_c_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S_S99000 : S_.BroadcastsInDim S99000 (![] : Fin 0 → Fin S99000.rank)
  bcast_S99000_S99000x1_0 : S99000.BroadcastsInDim S99000x1 (![0] : Fin 1 → Fin S99000x1.rank)
  bcast_S1_S1x1_1 : S1.BroadcastsInDim S1x1 (![1] : Fin 1 → Fin S1x1.rank)
  bcast_S1x1_S99000x1_0_1 : S1x1.BroadcastsInDim S99000x1 (![0, 1] : Fin 2 → Fin S99000x1.rank)
  shapeCasts_S99000x1_S99000 : S99000x1.ShapeCasts S99000
  bcast_S_S1000 : S_.BroadcastsInDim S1000 (![] : Fin 0 → Fin S1000.rank)
  bcast_S1000_S1000x1_0 : S1000.BroadcastsInDim S1000x1 (![0] : Fin 1 → Fin S1000x1.rank)
  bcast_S1x1_S1000x1_0_1 : S1x1.BroadcastsInDim S1000x1 (![0, 1] : Fin 2 → Fin S1000x1.rank)
  shapeCasts_S1000x1_S1000 : S1000x1.ShapeCasts S1000
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x768_S768x128_S100000x128_1_0_0_1_n_n_wf : DotDims.WF S100000x768 S768x128 S100000x128 [1] [0] [0] [1] [] []
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S99000x1_S99000x128_1_0_n_n_0_1_1128_wf : GatherDims.WF S100000x128 S99000x1 S99000x128 [1] [0] [] [0] [] 1 ![1, 128]
  dot_S99000x128_S128x1_S99000x1_1_0_0_1_n_n_wf : DotDims.WF S99000x128 S128x1 S99000x1 [1] [0] [0] [1] [] []
  gather_S100000x128_S1000x1_S1000x128_1_0_n_n_0_1_1128_wf : GatherDims.WF S100000x128 S1000x1 S1000x128 [1] [0] [] [0] [] 1 ![1, 128]
  dot_S1000x128_S128x1_S1000x1_1_0_0_1_n_n_wf : DotDims.WF S1000x128 S128x1 S1000x1 [1] [0] [0] [1] [] []
  gather_S100000_S99000x1_S99000_n_0_n_n_0_1_1_wf : GatherDims.WF S100000 S99000x1 S99000 [] [0] [] [0] [] 1 ![1]

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S99000x1_S99000x128_1_0_n_n_0_1_1128 : GatherDims S100000x128 S99000x1 S99000x128 where
  offsetDims := [1]
  collapsedSliceDims := [0]
  operandBatchingDims := []
  startIndicesBatchingDims := []
  startIndexMap := [0]
  indexVectorDim := 1
  sliceSizes := ![1, 128]
  wf := gather_S100000x128_S99000x1_S99000x128_1_0_n_n_0_1_1128_wf
def dot_S99000x128_S128x1_S99000x1_1_0_0_1_n_n : DotDims S99000x128 S128x1 S99000x1 where
  lhsContracting := [1]
  rhsContracting := [0]
  lhsNonContracting := [0]
  rhsNonContracting := [1]
  lhsBatch := []
  rhsBatch := []
  wf := dot_S99000x128_S128x1_S99000x1_1_0_0_1_n_n_wf
def gather_S100000x128_S1000x1_S1000x128_1_0_n_n_0_1_1128 : GatherDims S100000x128 S1000x1 S1000x128 where
  offsetDims := [1]
  collapsedSliceDims := [0]
  operandBatchingDims := []
  startIndicesBatchingDims := []
  startIndexMap := [0]
  indexVectorDim := 1
  sliceSizes := ![1, 128]
  wf := gather_S100000x128_S1000x1_S1000x128_1_0_n_n_0_1_1128_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf
def gather_S100000_S99000x1_S99000_n_0_n_n_0_1_1 : GatherDims S100000 S99000x1 S99000 where
  offsetDims := []
  collapsedSliceDims := [0]
  operandBatchingDims := []
  startIndicesBatchingDims := []
  startIndexMap := [0]
  indexVectorDim := 1
  sliceSizes := ![1]
  wf := gather_S100000_S99000x1_S99000_n_0_n_n_0_1_1_wf

class Facts : Prop extends Facts₀ where

variable [Facts]
-- ==== Proof.KernelRun.lean ====
/-
  The idealized kernel program's run with every buffer read back.

  The program is thirteen segments: stretches of host operations and five pipelined regions.  Run from any memory
  with zero counters, every weakly fair execution terminates without a fault, and every unscoped buffer of the
  TensorCore ends at the last boundary's contents, the fold `W13` of the host stretches over the regions' write-backs.
  The frame certificate draws from that fact only that the argument arrays are unchanged; here the same launch is
  read at the three result buffers as well.
-/
import proofs.«137977_j60172491817222_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    boundary's contents and each argument array as launched. -/
theorem run : θ_run defs (onTc (τ := τ) (main (F := F))) ⟨m, fun _ => 0, ρ⟩ (fun r => ∀ c : Dev nD,
      r.2.mem ((c.tc : Thread nD τ).loc main_v76) = W13 m ρ c (Proc.devRef .tc main_v76)
      ∧ r.2.mem ((c.tc : Thread nD τ).loc main_v88) = W13 m ρ c (Proc.devRef .tc main_v88)
      ∧ r.2.mem ((c.tc : Thread nD τ).loc main_v95) = W13 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v76 (by decide)),
       h c _ (mem_uc main_v88 (by decide)),
       h c _ (mem_uc main_v95 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Whole

end
-- ==== Proof.Keep.lean ====
/-
  BUFFERS THAT RIDE THROUGH THE RUN UNCHANGED.  The program's boundary contents W0 … W13 are a fold: a stretch of
  host operations rewrites only the buffers its operations write, and a region rewrites only its output array (its
  input arrays come back as they went in).  So a buffer read long after it was written holds what it held then; the
  lemmas here walk each buffer the later segments read back to the boundary where it was last written, or, for an
  argument, to the launch memory.
-/
import proofs.«137977_j60172491817222_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the named stretch writes the buffer at hand, so the stretch leaves it as it was. -/
macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments, where a later segment reads them -/

/-- Argument 0 is untouched up to boundary 3. -/
theorem arg0_at3 : W3 m ρ c (Proc.devRef .tc main_arg0) = m ((c : Thread nD τ).loc main_arg0) :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

/-- Argument 6 is untouched up to boundary 3. -/
theorem arg6_at3 : W3 m ρ c (Proc.devRef .tc main_arg6) = m ((c : Thread nD τ).loc main_arg6) :=
  calc W3 m ρ c (Proc.devRef .tc main_arg6)
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl

/-- Argument 8 is untouched up to boundary 5. -/
theorem arg8_at5 : W5 m ρ c (Proc.devRef .tc main_arg8) = m ((c : Thread nD τ).loc main_arg8) :=
  calc W5 m ρ c (Proc.devRef .tc main_arg8)
    _ = W4 m ρ c (Proc.devRef .tc main_arg8) := by keeps hostOps1
    _ = W3 m ρ c (Proc.devRef .tc main_arg8) := W4_of_ne m ρ c main_arg8 (by decide)
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = m ((c : Thread nD τ).loc main_arg8) := rfl

/-- Argument 9 is untouched up to boundary 6. -/
theorem arg9_at6 : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by keeps hostOps1
    _ = W3 m ρ c (Proc.devRef .tc main_arg9) := W4_of_ne m ρ c main_arg9 (by decide)
    _ = W2 m ρ c (Proc.devRef .tc main_arg9) := by keeps hostOps0_2
    _ = W1 m ρ c (Proc.devRef .tc main_arg9) := by keeps hostOps0_1
    _ = W0 m ρ c (Proc.devRef .tc main_arg9) := by keeps hostOps0
    _ = m ((c : Thread nD τ).loc main_arg9) := rfl

/-- Argument 10 is untouched up to boundary 9. -/
theorem arg10_at9 : W9 m ρ c (Proc.devRef .tc main_arg10) = m ((c : Thread nD τ).loc main_arg10) :=
  calc W9 m ρ c (Proc.devRef .tc main_arg10)
    _ = W8 m ρ c (Proc.devRef .tc main_arg10) := by keeps hostOps3
    _ = W7 m ρ c (Proc.devRef .tc main_arg10) := W8_of_ne m ρ c main_arg10 (by decide)
    _ = W6 m ρ c (Proc.devRef .tc main_arg10) := by keeps hostOps2
    _ = W5 m ρ c (Proc.devRef .tc main_arg10) := W6_of_ne m ρ c main_arg10 (by decide)
    _ = W4 m ρ c (Proc.devRef .tc main_arg10) := by keeps hostOps1
    _ = W3 m ρ c (Proc.devRef .tc main_arg10) := W4_of_ne m ρ c main_arg10 (by decide)
    _ = W2 m ρ c (Proc.devRef .tc main_arg10) := by keeps hostOps0_2
    _ = W1 m ρ c (Proc.devRef .tc main_arg10) := by keeps hostOps0_1
    _ = W0 m ρ c (Proc.devRef .tc main_arg10) := by keeps hostOps0
    _ = m ((c : Thread nD τ).loc main_arg10) := rfl

/-- Argument 11 is untouched up to boundary 10. -/
theorem arg11_at10 : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := by keeps hostOps3
    _ = W7 m ρ c (Proc.devRef .tc main_arg11) := W8_of_ne m ρ c main_arg11 (by decide)
    _ = W6 m ρ c (Proc.devRef .tc main_arg11) := by keeps hostOps2
    _ = W5 m ρ c (Proc.devRef .tc main_arg11) := W6_of_ne m ρ c main_arg11 (by decide)
    _ = W4 m ρ c (Proc.devRef .tc main_arg11) := by keeps hostOps1
    _ = W3 m ρ c (Proc.devRef .tc main_arg11) := W4_of_ne m ρ c main_arg11 (by decide)
    _ = W2 m ρ c (Proc.devRef .tc main_arg11) := by keeps hostOps0_2
    _ = W1 m ρ c (Proc.devRef .tc main_arg11) := by keeps hostOps0_1
    _ = W0 m ρ c (Proc.devRef .tc main_arg11) := by keeps hostOps0
    _ = m ((c : Thread nD τ).loc main_arg11) := rfl

/-- Argument 3 is untouched up to boundary 12. -/
theorem arg3_at12 : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := by keeps hostOps4
    _ = W9 m ρ c (Proc.devRef .tc main_arg3) := W10_of_ne m ρ c main_arg3 (by decide)
    _ = W8 m ρ c (Proc.devRef .tc main_arg3) := by keeps hostOps3
    _ = W7 m ρ c (Proc.devRef .tc main_arg3) := W8_of_ne m ρ c main_arg3 (by decide)
    _ = W6 m ρ c (Proc.devRef .tc main_arg3) := by keeps hostOps2
    _ = W5 m ρ c (Proc.devRef .tc main_arg3) := W6_of_ne m ρ c main_arg3 (by decide)
    _ = W4 m ρ c (Proc.devRef .tc main_arg3) := by keeps hostOps1
    _ = W3 m ρ c (Proc.devRef .tc main_arg3) := W4_of_ne m ρ c main_arg3 (by decide)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

/-- Argument 4 is untouched up to boundary 12. -/
theorem arg4_at12 : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := by keeps hostOps4
    _ = W9 m ρ c (Proc.devRef .tc main_arg4) := W10_of_ne m ρ c main_arg4 (by decide)
    _ = W8 m ρ c (Proc.devRef .tc main_arg4) := by keeps hostOps3
    _ = W7 m ρ c (Proc.devRef .tc main_arg4) := W8_of_ne m ρ c main_arg4 (by decide)
    _ = W6 m ρ c (Proc.devRef .tc main_arg4) := by keeps hostOps2
    _ = W5 m ρ c (Proc.devRef .tc main_arg4) := W6_of_ne m ρ c main_arg4 (by decide)
    _ = W4 m ρ c (Proc.devRef .tc main_arg4) := by keeps hostOps1
    _ = W3 m ρ c (Proc.devRef .tc main_arg4) := W4_of_ne m ρ c main_arg4 (by decide)
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl

/-- Argument 5 is untouched up to boundary 12. -/
theorem arg5_at12 : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := by keeps hostOps4
    _ = W9 m ρ c (Proc.devRef .tc main_arg5) := W10_of_ne m ρ c main_arg5 (by decide)
    _ = W8 m ρ c (Proc.devRef .tc main_arg5) := by keeps hostOps3
    _ = W7 m ρ c (Proc.devRef .tc main_arg5) := W8_of_ne m ρ c main_arg5 (by decide)
    _ = W6 m ρ c (Proc.devRef .tc main_arg5) := by keeps hostOps2
    _ = W5 m ρ c (Proc.devRef .tc main_arg5) := W6_of_ne m ρ c main_arg5 (by decide)
    _ = W4 m ρ c (Proc.devRef .tc main_arg5) := by keeps hostOps1
    _ = W3 m ρ c (Proc.devRef .tc main_arg5) := W4_of_ne m ρ c main_arg5 (by decide)
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

/-- Argument 12 is untouched up to boundary 12. -/
theorem arg12_at12 : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := by keeps hostOps4
    _ = W9 m ρ c (Proc.devRef .tc main_arg12) := W10_of_ne m ρ c main_arg12 (by decide)
    _ = W8 m ρ c (Proc.devRef .tc main_arg12) := by keeps hostOps3
    _ = W7 m ρ c (Proc.devRef .tc main_arg12) := W8_of_ne m ρ c main_arg12 (by decide)
    _ = W6 m ρ c (Proc.devRef .tc main_arg12) := by keeps hostOps2
    _ = W5 m ρ c (Proc.devRef .tc main_arg12) := W6_of_ne m ρ c main_arg12 (by decide)
    _ = W4 m ρ c (Proc.devRef .tc main_arg12) := by keeps hostOps1
    _ = W3 m ρ c (Proc.devRef .tc main_arg12) := W4_of_ne m ρ c main_arg12 (by decide)
    _ = W2 m ρ c (Proc.devRef .tc main_arg12) := by keeps hostOps0_2
    _ = W1 m ρ c (Proc.devRef .tc main_arg12) := by keeps hostOps0_1
    _ = W0 m ρ c (Proc.devRef .tc main_arg12) := by keeps hostOps0
    _ = m ((c : Thread nD τ).loc main_arg12) := rfl

/-- Argument 13 is untouched up to boundary 12. -/
theorem arg13_at12 : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := by keeps hostOps4
    _ = W9 m ρ c (Proc.devRef .tc main_arg13) := W10_of_ne m ρ c main_arg13 (by decide)
    _ = W8 m ρ c (Proc.devRef .tc main_arg13) := by keeps hostOps3
    _ = W7 m ρ c (Proc.devRef .tc main_arg13) := W8_of_ne m ρ c main_arg13 (by decide)
    _ = W6 m ρ c (Proc.devRef .tc main_arg13) := by keeps hostOps2
    _ = W5 m ρ c (Proc.devRef .tc main_arg13) := W6_of_ne m ρ c main_arg13 (by decide)
    _ = W4 m ρ c (Proc.devRef .tc main_arg13) := by keeps hostOps1
    _ = W3 m ρ c (Proc.devRef .tc main_arg13) := W4_of_ne m ρ c main_arg13 (by decide)
    _ = W2 m ρ c (Proc.devRef .tc main_arg13) := by keeps hostOps0_2
    _ = W1 m ρ c (Proc.devRef .tc main_arg13) := by keeps hostOps0_1
    _ = W0 m ρ c (Proc.devRef .tc main_arg13) := by keeps hostOps0
    _ = m ((c : Thread nD τ).loc main_arg13) := rfl

/-- Argument 7 is untouched up to boundary 2. -/
theorem arg7_at2 : W2 m ρ c (Proc.devRef .tc main_arg7) = m ((c : Thread nD τ).loc main_arg7) :=
  calc W2 m ρ c (Proc.devRef .tc main_arg7)
    _ = W1 m ρ c (Proc.devRef .tc main_arg7) := by keeps hostOps0_1
    _ = W0 m ρ c (Proc.devRef .tc main_arg7) := by keeps hostOps0
    _ = m ((c : Thread nD τ).loc main_arg7) := rfl

/-- The source list through the rest of the prologue. -/
theorem v1_at3 : W3 m ρ c (Proc.devRef .tc main_v1) = W1 m ρ c (Proc.devRef .tc main_v1) :=
  calc W3 m ρ c (Proc.devRef .tc main_v1)
    _ = W2 m ρ c (Proc.devRef .tc main_v1) := by keeps hostOps0_2
    _ = W1 m ρ c (Proc.devRef .tc main_v1) := by keeps hostOps0_1
    _ = W1 m ρ c (Proc.devRef .tc main_v1) := rfl

/-- The destination list through the rest of the prologue. -/
theorem v2_at3 : W3 m ρ c (Proc.devRef .tc main_v2) = W1 m ρ c (Proc.devRef .tc main_v2) :=
  calc W3 m ρ c (Proc.devRef .tc main_v2)
    _ = W2 m ρ c (Proc.devRef .tc main_v2) := by keeps hostOps0_2
    _ = W1 m ρ c (Proc.devRef .tc main_v2) := by keeps hostOps0_1
    _ = W1 m ρ c (Proc.devRef .tc main_v2) := rfl

/-- The source list after the selection of the degree factors. -/
theorem v1_at2 : W2 m ρ c (Proc.devRef .tc main_v1) = W1 m ρ c (Proc.devRef .tc main_v1) :=
  calc W2 m ρ c (Proc.devRef .tc main_v1)
    _ = W1 m ρ c (Proc.devRef .tc main_v1) := by keeps hostOps0_1
    _ = W1 m ρ c (Proc.devRef .tc main_v1) := rfl

/-- The destination list after the selection of the degree factors. -/
theorem v2_at2 : W2 m ρ c (Proc.devRef .tc main_v2) = W1 m ρ c (Proc.devRef .tc main_v2) :=
  calc W2 m ρ c (Proc.devRef .tc main_v2)
    _ = W1 m ρ c (Proc.devRef .tc main_v2) := by keeps hostOps0_1
    _ = W1 m ρ c (Proc.devRef .tc main_v2) := rfl

/-- The unit edge weights after the selection of the degree factors. -/
theorem v3_at2 : W2 m ρ c (Proc.devRef .tc main_v3) = W1 m ρ c (Proc.devRef .tc main_v3) :=
  calc W2 m ρ c (Proc.devRef .tc main_v3)
    _ = W1 m ρ c (Proc.devRef .tc main_v3) := by keeps hostOps0_1
    _ = W1 m ρ c (Proc.devRef .tc main_v3) := rfl

/-! ## The edge lists and the edge normalisation, written before the first region and read by both aggregations -/

/-- Buffer v1 at the first aggregation's boundary is as the host prologue left it. -/
theorem v1_at6 : W6 m ρ c (Proc.devRef .tc main_v1) = W3 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by keeps hostOps1
    _ = W3 m ρ c (Proc.devRef .tc main_v1) := W4_of_ne m ρ c main_v1 (by decide)
    _ = W3 m ρ c (Proc.devRef .tc main_v1) := rfl

/-- Buffer v1 at the second aggregation's boundary is as the host prologue left it. -/
theorem v1_at10 : W10 m ρ c (Proc.devRef .tc main_v1) = W3 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by keeps hostOps3
    _ = W7 m ρ c (Proc.devRef .tc main_v1) := W8_of_ne m ρ c main_v1 (by decide)
    _ = W6 m ρ c (Proc.devRef .tc main_v1) := by keeps hostOps2
    _ = W3 m ρ c (Proc.devRef .tc main_v1) := v1_at6 m ρ c

/-- Buffer v2 at the first aggregation's boundary is as the host prologue left it. -/
theorem v2_at6 : W6 m ρ c (Proc.devRef .tc main_v2) = W3 m ρ c (Proc.devRef .tc main_v2) :=
  calc W6 m ρ c (Proc.devRef .tc main_v2)
    _ = W5 m ρ c (Proc.devRef .tc main_v2) := W6_of_ne m ρ c main_v2 (by decide)
    _ = W4 m ρ c (Proc.devRef .tc main_v2) := by keeps hostOps1
    _ = W3 m ρ c (Proc.devRef .tc main_v2) := W4_of_ne m ρ c main_v2 (by decide)
    _ = W3 m ρ c (Proc.devRef .tc main_v2) := rfl

/-- Buffer v2 at the second aggregation's boundary is as the host prologue left it. -/
theorem v2_at10 : W10 m ρ c (Proc.devRef .tc main_v2) = W3 m ρ c (Proc.devRef .tc main_v2) :=
  calc W10 m ρ c (Proc.devRef .tc main_v2)
    _ = W9 m ρ c (Proc.devRef .tc main_v2) := W10_of_ne m ρ c main_v2 (by decide)
    _ = W8 m ρ c (Proc.devRef .tc main_v2) := by keeps hostOps3
    _ = W7 m ρ c (Proc.devRef .tc main_v2) := W8_of_ne m ρ c main_v2 (by decide)
    _ = W6 m ρ c (Proc.devRef .tc main_v2) := by keeps hostOps2
    _ = W3 m ρ c (Proc.devRef .tc main_v2) := v2_at6 m ρ c

/-- Buffer v26 at the first aggregation's boundary is as the host prologue left it. -/
theorem v26_at6 : W6 m ρ c (Proc.devRef .tc main_v26) = W3 m ρ c (Proc.devRef .tc main_v26) :=
  calc W6 m ρ c (Proc.devRef .tc main_v26)
    _ = W5 m ρ c (Proc.devRef .tc main_v26) := W6_of_ne m ρ c main_v26 (by decide)
    _ = W4 m ρ c (Proc.devRef .tc main_v26) := by keeps hostOps1
    _ = W3 m ρ c (Proc.devRef .tc main_v26) := W4_of_ne m ρ c main_v26 (by decide)
    _ = W3 m ρ c (Proc.devRef .tc main_v26) := rfl

/-- Buffer v26 at the second aggregation's boundary is as the host prologue left it. -/
theorem v26_at10 : W10 m ρ c (Proc.devRef .tc main_v26) = W3 m ρ c (Proc.devRef .tc main_v26) :=
  calc W10 m ρ c (Proc.devRef .tc main_v26)
    _ = W9 m ρ c (Proc.devRef .tc main_v26) := W10_of_ne m ρ c main_v26 (by decide)
    _ = W8 m ρ c (Proc.devRef .tc main_v26) := by keeps hostOps3
    _ = W7 m ρ c (Proc.devRef .tc main_v26) := W8_of_ne m ρ c main_v26 (by decide)
    _ = W6 m ρ c (Proc.devRef .tc main_v26) := by keeps hostOps2
    _ = W3 m ρ c (Proc.devRef .tc main_v26) := v26_at6 m ρ c

/-! ## The features, read again as residuals and as the next layer's input -/

/-- The projected features at the first layer's product. -/
theorem v28_at5 : W5 m ρ c (Proc.devRef .tc main_v28) = W4 m ρ c (Proc.devRef .tc main_v28) :=
  calc W5 m ρ c (Proc.devRef .tc main_v28)
    _ = W4 m ρ c (Proc.devRef .tc main_v28) := by keeps hostOps1
    _ = W4 m ρ c (Proc.devRef .tc main_v28) := rfl

/-- The projected features at the first layer's residual: the product in between reads them and puts them back. -/
theorem v28_at7 : W7 m ρ c (Proc.devRef .tc main_v28) = W4 m ρ c (Proc.devRef .tc main_v28) :=
  calc W7 m ρ c (Proc.devRef .tc main_v28)
    _ = W6 m ρ c (Proc.devRef .tc main_v28) := by keeps hostOps2
    _ = W5 m ρ c (Proc.devRef .tc main_v28) := (W6_arr m ρ c 0).trans (((dat1 (V5 m ρ) c).arrAt_in 0 rfl _).trans (A_eq1 (V5 m ρ) c 0))
    _ = W4 m ρ c (Proc.devRef .tc main_v28) := v28_at5 m ρ c

/-- The first layer's output at the second layer's product. -/
theorem v46_at9 : W9 m ρ c (Proc.devRef .tc main_v46) = W8 m ρ c (Proc.devRef .tc main_v46) :=
  calc W9 m ρ c (Proc.devRef .tc main_v46)
    _ = W8 m ρ c (Proc.devRef .tc main_v46) := by keeps hostOps3
    _ = W8 m ρ c (Proc.devRef .tc main_v46) := rfl

/-- The first layer's output at the second layer's residual. -/
theorem v46_at11 : W11 m ρ c (Proc.devRef .tc main_v46) = W8 m ρ c (Proc.devRef .tc main_v46) :=
  calc W11 m ρ c (Proc.devRef .tc main_v46)
    _ = W10 m ρ c (Proc.devRef .tc main_v46) := by keeps hostOps4
    _ = W9 m ρ c (Proc.devRef .tc main_v46) := (W10_arr m ρ c 0).trans (((dat3 (V9 m ρ) c).arrAt_in 0 rfl _).trans (A_eq3 (V9 m ρ) c 0))
    _ = W8 m ρ c (Proc.devRef .tc main_v46) := v46_at9 m ρ c

end Cert.KernelIdeal.Keep

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibLeakyDense.lean ====
/-
  LEAKY-RECTIFIED DENSE STAGES, READ AT AN INDEX, generic in the extents.

  Over the extended reals, with  leaky v = v if v ≥ 0 else 0.2·v  (the slope the f32 word 0x3E4CCCCD, the zero the
  f32 word 0, both kept as words: the two spellings below carry the same words, so neither is ever evaluated):

  * a bias vector [B] laid as the row [1, B] and spread over [A, B] reads b(c) at (r, c) — in a kernel's spelling
    (shape cast, then vector broadcast) and in the host's (two broadcast_in_dim);
  * a scalar splat over any shape is the host's broadcast of a rank-0 constant;
  * x + bias row, then leaky, at (r, c) is  leaky (x(r, c) + b(c))  in both spellings;
  * a plain product whose operands pass a narrowing format change (the identity on the extended reals) is the host's
    dot_general of the operands, entry by entry:  Σ_k l(r, k) · w(k, c).

  * the two-layer head (leaky (z · W₂ + b₂)) · W₃ + b₃ at (r, c) as one double sum, in both spellings.

  Nothing here depends on a program.
-/
import Idealize.ShloMosaic.Lib.ValueIdx
import Idealize.ShloMosaic.Lib.ValueLayout
import Idealize.ShloMosaic.Lib.Pipeline.Value
import Idealize.ShloMosaic.PureOps.Ideal.Laws
import proofs.«137977_j60172491817222_1_alg».proof.Proof.LibPlainDot

noncomputable section

open scoped BigOperators

namespace Cert.Lib.LeakyDense

open Idealize.ShloMosaic Idealize.ShloMosaic.ValueIdx Cert.Lib.PlainDot

variable {A K B : Nat}

/-- leaky v = v where v ≥ 0, 0.2·v elsewhere: the comparison, the product and the choice as one scalar function
    of the extended real v, the zero and the slope as their f32 words. -/
def leaky (v : Ideal .f32) : Ideal .f32 :=
  Scalar.select (FloatOps.cmpf .oge v (FloatOps.ofBits .f32 0x00000000#32)) v
    (FloatOps.mulf (FloatOps.ofBits .f32 0x3E4CCCCD#32) v)

/-! ## The bias row -/

/-- A kernel's spelling: the vector [B] cast to [1, B] and broadcast over the rows of [A, B] reads b(c) at (r, c). -/
theorem kernelRow_apply {α : Type} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (r : Fin A) (c : Fin B) :
    broadcastTo ⟨2, ![A, B]⟩ (shapeCast ⟨2, ![1, B]⟩ b h1) h2 (ix2 r c) = b (ix1 c) :=
  (broadcastTo_1b_ab_apply _ h2 r c).trans (shapeCast_a_1a_apply b h1 0 c)

/-- The host's spelling: the vector [B] broadcast along axis 1 into [1, B], then over [A, B], reads b(c) at (r, c). -/
theorem hostRow_apply {α : Type} (b : (⟨1, ![B]⟩ : Shape).Idx → α)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (r : Fin A) (c : Fin B) :
    broadcastInDim ⟨2, ![A, B]⟩ (![0, 1] : Fin 2 → Fin 2) g2 (broadcastInDim ⟨2, ![1, B]⟩ (![1] : Fin 1 → Fin 2) g1 b) (ix2 r c) = b (ix1 c) := by
  refine (broadcastInDim_apply _ g2 _ (ix2 r c) (ix2 (0 : Fin 1) c) fun a => ?_).trans
    (broadcastInDim_apply _ g1 b (ix2 (0 : Fin 1) c) (ix1 c) fun a => ?_)
  · match a with
    | ⟨0, _⟩ => show (0 : Nat) = if (1 : Nat) = 1 then 0 else r.val; rw [if_pos rfl]
    | ⟨1, _⟩ =>
      show c.val = if B = 1 then 0 else c.val
      split
      · have := c.isLt; omega
      · rfl
  · match a with
    | ⟨0, _⟩ =>
      show c.val = if B = 1 then 0 else c.val
      split
      · have := c.isLt; omega
      · rfl

/-! ## Bias, then leaky -/

/-- A kernel's spelling of  leaky (x + bias row)  at (r, c): the zero and the slope splat from scalars. -/
theorem kernelBiasLeaky_apply (x : FVec Ideal ⟨2, ![A, B]⟩ .f32) (b : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (r : Fin A) (c : Fin B) :
    select (cmpf .oge (addf x (broadcastTo ⟨2, ![A, B]⟩ (shapeCast ⟨2, ![1, B]⟩ b h1) h2))
        (broadcast ⟨2, ![A, B]⟩ (Scalar.ofBits (F := Ideal) .f32 0x00000000#32)))
      (addf x (broadcastTo ⟨2, ![A, B]⟩ (shapeCast ⟨2, ![1, B]⟩ b h1) h2))
      (mulf (broadcast ⟨2, ![A, B]⟩ (Scalar.ofBits (F := Ideal) .f32 0x3E4CCCCD#32))
        (addf x (broadcastTo ⟨2, ![A, B]⟩ (shapeCast ⟨2, ![1, B]⟩ b h1) h2))) (ix2 r c)
      = leaky (x (ix2 r c) + b (ix1 c)) := by
  have e := kernelRow_apply (A := A) b h1 h2 r c
  show Scalar.select (FloatOps.cmpf .oge (x (ix2 r c) + _) _) (x (ix2 r c) + _) (FloatOps.mulf _ (x (ix2 r c) + _)) = _
  rw [e]
  rfl

/-- The host's spelling of  leaky (x + bias row)  at (r, c): the zero and the slope broadcast from rank-0 constants. -/
theorem hostBiasLeaky_apply (x : FVec Ideal ⟨2, ![A, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (g0 : (⟨0, ![]⟩ : Shape).BroadcastsInDim ⟨2, ![A, B]⟩ (![] : Fin 0 → Fin 2))
    (r : Fin A) (c : Fin B) :
    select (cmpf .oge (addf x (broadcastInDim ⟨2, ![A, B]⟩ (![0, 1] : Fin 2 → Fin 2) g2 (broadcastInDim ⟨2, ![1, B]⟩ (![1] : Fin 1 → Fin 2) g1 b)))
        (broadcastInDim ⟨2, ![A, B]⟩ (![] : Fin 0 → Fin 2) g0 (constant (F := Ideal) ⟨0, ![]⟩ .f32 0x00000000#32)))
      (addf x (broadcastInDim ⟨2, ![A, B]⟩ (![0, 1] : Fin 2 → Fin 2) g2 (broadcastInDim ⟨2, ![1, B]⟩ (![1] : Fin 1 → Fin 2) g1 b)))
      (mulf (broadcastInDim ⟨2, ![A, B]⟩ (![] : Fin 0 → Fin 2) g0 (constant (F := Ideal) ⟨0, ![]⟩ .f32 0x3E4CCCCD#32))
        (addf x (broadcastInDim ⟨2, ![A, B]⟩ (![0, 1] : Fin 2 → Fin 2) g2 (broadcastInDim ⟨2, ![1, B]⟩ (![1] : Fin 1 → Fin 2) g1 b)))) (ix2 r c)
      = leaky (x (ix2 r c) + b (ix1 c)) := by
  have e := hostRow_apply (A := A) b g1 g2 r c
  show Scalar.select (FloatOps.cmpf .oge (x (ix2 r c) + _) _) (x (ix2 r c) + _) (FloatOps.mulf _ (x (ix2 r c) + _)) = _
  rw [e]
  rfl

/-! ## The plain product through a narrowing format change -/

/-- A kernel's matmul into the zero accumulator of operands narrowed to another float format reads, at (r, c), the
    textbook sum of the operands themselves: the format change is the identity on the extended reals. -/
theorem kernelDot_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (l : FVec Ideal ⟨2, ![A, K]⟩ .f32) (w : FVec Ideal ⟨2, ![K, B]⟩ .f32) (r : Fin A) (c : Fin B) :
    matmul d none (truncf ψ l hb) (truncf ψ w hb) (constant ⟨2, ![A, B]⟩ .f32 0x00000000#32) (ix2 r c)
      = ∑ k : Fin K, l (ix2 r k) * w (ix2 k c) := by
  obtain rfl := eq_plain d h1 h2 h3 h4 h5 h6
  exact matmul_zero_plain_apply none (truncf ψ l hb) (truncf ψ w hb) (ix2 r c)

/-- The host's dot_general of a plain product reads, at (r, c), the same sum. -/
theorem hostDot_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ .f32) (w : FVec Ideal ⟨2, ![K, B]⟩ .f32) (r : Fin A) (c : Fin B) :
    Host.dotGeneral d none l w (ix2 r c) = ∑ k : Fin K, l (ix2 r k) * w (ix2 k c) := by
  obtain rfl := eq_plain d h1 h2 h3 h4 h5 h6
  exact dotGeneral_plain_apply none l w (ix2 r c)

/-! ## Offsets of a whole-block access -/

theorem offs2 : (![0, 0] : Fin 2 → Nat) = fun _ => 0 := funext fun a => by fin_cases a <;> rfl
theorem offs1 : (![0] : Fin 1 → Nat) = fun _ => 0 := funext fun a => by fin_cases a; rfl

/-! ## A two-layer head:  (leaky (z · W₂ + b₂)) · W₃ + b₃ -/

section Head
variable {K₁ K₂ : Nat}

/-- A kernel's spelling of the head — both products into zero accumulators with operands narrowed to another float
    format, both biases cast to rows and broadcast, the zero and the slope splat — read at (r, c). -/
theorem kernelHead_apply {ψ : FTy} (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (hb : ψ.bits < FTy.f32.bits)
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (h0 : (⟨2, ![A, K₁]⟩ : Shape).ShapeCasts ⟨2, ![A, K₁]⟩)
    (h1 : (⟨1, ![K₂]⟩ : Shape).ShapeCasts ⟨2, ![1, K₂]⟩) (h2 : (⟨2, ![1, K₂]⟩ : Shape).Broadcasts ⟨2, ![A, K₂]⟩)
    (h3 : (⟨1, ![B]⟩ : Shape).ShapeCasts ⟨2, ![1, B]⟩) (h4 : (⟨2, ![1, B]⟩ : Shape).Broadcasts ⟨2, ![A, B]⟩)
    (r : Fin A) (c : Fin B) :
    (addf (matmul d₃ none (truncf ψ (select (cmpf .oge (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (broadcast ⟨2, ![A, K₂]⟩ (Scalar.ofBits (F := Ideal) .f32 0x00000000#32))) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (mulf (broadcast ⟨2, ![A, K₂]⟩ (Scalar.ofBits (F := Ideal) .f32 0x3E4CCCCD#32)) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)))) hb) (truncf ψ w₃ hb) (constant ⟨2, ![A, B]⟩ .f32 0x00000000#32)) (broadcastTo ⟨2, ![A, B]⟩ (shapeCast ⟨2, ![1, B]⟩ b₃ h3) h4)) (ix2 r c)
      = (∑ k : Fin K₂, leaky ((∑ j : Fin K₁, z (ix2 r j) * w₂ (ix2 j k)) + b₂ (ix1 k)) * w₃ (ix2 k c)) + b₃ (ix1 c) := by
  show (matmul d₃ none _ _ _) (ix2 r c) + (broadcastTo ⟨2, ![A, B]⟩ (shapeCast ⟨2, ![1, B]⟩ b₃ h3) h4) (ix2 r c) = _
  rw [kernelRow_apply (A := A) b₃ h3 h4 r c, kernelDot_apply d₃ q1 q2 q3 q4 q5 q6 hb _ w₃ r c]
  refine congrArg (· + b₃ (ix1 c)) (Finset.sum_congr rfl fun k _ => congrArg (· * w₃ (ix2 k c)) ?_)
  rw [kernelBiasLeaky_apply (A := A) _ b₂ h1 h2 r k, kernelDot_apply d₂ p1 p2 p3 p4 p5 p6 hb _ w₂ r k, shapeCast_self]

/-- The host's spelling of the head — two dot_general, each bias broadcast twice, the zero and the slope broadcast
    from rank-0 constants — read at (r, c): the same double sum. -/
theorem hostHead_apply (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (g1 : (⟨1, ![K₂]⟩ : Shape).BroadcastsInDim ⟨2, ![1, K₂]⟩ (![1] : Fin 1 → Fin 2))
    (g2 : (⟨2, ![1, K₂]⟩ : Shape).BroadcastsInDim ⟨2, ![A, K₂]⟩ (![0, 1] : Fin 2 → Fin 2))
    (g0 : (⟨0, ![]⟩ : Shape).BroadcastsInDim ⟨2, ![A, K₂]⟩ (![] : Fin 0 → Fin 2))
    (g3 : (⟨1, ![B]⟩ : Shape).BroadcastsInDim ⟨2, ![1, B]⟩ (![1] : Fin 1 → Fin 2))
    (g4 : (⟨2, ![1, B]⟩ : Shape).BroadcastsInDim ⟨2, ![A, B]⟩ (![0, 1] : Fin 2 → Fin 2))
    (r : Fin A) (c : Fin B) :
    (addf (Host.dotGeneral d₃ none (select (cmpf .oge (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (broadcastInDim ⟨2, ![A, K₂]⟩ (![] : Fin 0 → Fin 2) g0 (constant (F := Ideal) ⟨0, ![]⟩ .f32 0x00000000#32))) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (mulf (broadcastInDim ⟨2, ![A, K₂]⟩ (![] : Fin 0 → Fin 2) g0 (constant (F := Ideal) ⟨0, ![]⟩ .f32 0x3E4CCCCD#32)) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))))) w₃) (broadcastInDim ⟨2, ![A, B]⟩ (![0, 1] : Fin 2 → Fin 2) g4 (broadcastInDim ⟨2, ![1, B]⟩ (![1] : Fin 1 → Fin 2) g3 b₃))) (ix2 r c)
      = (∑ k : Fin K₂, leaky ((∑ j : Fin K₁, z (ix2 r j) * w₂ (ix2 j k)) + b₂ (ix1 k)) * w₃ (ix2 k c)) + b₃ (ix1 c) := by
  show (Host.dotGeneral d₃ none _ w₃) (ix2 r c) + (broadcastInDim ⟨2, ![A, B]⟩ (![0, 1] : Fin 2 → Fin 2) g4 (broadcastInDim ⟨2, ![1, B]⟩ (![1] : Fin 1 → Fin 2) g3 b₃)) (ix2 r c) = _
  rw [hostRow_apply (A := A) b₃ g3 g4 r c, hostDot_apply d₃ q1 q2 q3 q4 q5 q6 _ w₃ r c]
  refine congrArg (· + b₃ (ix1 c)) (Finset.sum_congr rfl fun k _ => congrArg (· * w₃ (ix2 k c)) ?_)
  rw [hostBiasLeaky_apply (A := A) _ b₂ g1 g2 g0 r k, hostDot_apply d₂ p1 p2 p3 p4 p5 p6 z w₂ r k]

end Head

end Cert.Lib.LeakyDense

end
-- ==== Proof.LibGcnDense.lean ====
/-
  THE TWO DENSE STAGES OF THE NETWORK AS WHOLE-ARRAY FUNCTIONS, and each read at an index in a kernel's and in the host's
  spelling.  Generic in the extents; nothing here depends on a program.

  * `linRow x w brow` — entry (r, c) is  Σ_k x(r, k) · w(k, c) + brow(0, c):  a plain product plus a bias laid as a
    row [1, B].  A kernel spells it as a matmul into a zero accumulator of operands narrowed to another float format
    (the identity on the extended reals) plus the row broadcast over the rows; the host as a dot_general plus a vector
    [B] broadcast twice — or as the bare dot_general when the row is the zero row, since x + 0 = x on every extended
    real.
  * `actRes a brow res` — entry (r, c) is  max (a(r, c) + brow(0, c)) 0 + res(r, c):  bias, rectifier, residual.
-/
import Idealize.ShloMosaic.Lib.ValueIdx
import Idealize.ShloMosaic.Lib.ValueLayout
import Idealize.ShloMosaic.Lib.Pipeline.Value
import Idealize.ShloMosaic.PureOps.Ideal.Laws
import proofs.«137977_j60172491817222_1_alg».proof.Proof.LibPlainDot
import proofs.«137977_j60172491817222_1_alg».proof.Proof.LibLeakyDense

noncomputable section

open scoped BigOperators

namespace Cert.Lib.GcnDense

open Idealize.ShloMosaic Idealize.ShloMosaic.ValueIdx Cert.Lib.PlainDot Cert.Lib.LeakyDense

variable {A K B : Nat}

/-- A plain product plus a bias row: entry (r, c) is Σ_k x(r, k) · w(k, c) + brow(0, c). -/
def linRow (x : (⟨2, ![A, K]⟩ : Shape).Idx → Ideal .f32) (w : (⟨2, ![K, B]⟩ : Shape).Idx → Ideal .f32)
    (brow : (⟨2, ![1, B]⟩ : Shape).Idx → Ideal .f32) : (⟨2, ![A, B]⟩ : Shape).Idx → Ideal .f32 :=
  fun i => FloatOps.addf (∑ k : Fin K, x (ix2 (i 0) k) * w (ix2 k (i 1))) (brow (ix2 (0 : Fin 1) (i 1)))

/-- Bias row, rectifier, residual: entry (r, c) is max (a(r, c) + brow(0, c)) 0 + res(r, c), the zero kept as its
    f32 word. -/
def actRes (a : (⟨2, ![A, B]⟩ : Shape).Idx → Ideal .f32) (brow : (⟨2, ![1, B]⟩ : Shape).Idx → Ideal .f32)
    (res : (⟨2, ![A, B]⟩ : Shape).Idx → Ideal .f32) : (⟨2, ![A, B]⟩ : Shape).Idx → Ideal .f32 :=
  fun i => FloatOps.addf
    (FloatOps.maximumf (FloatOps.addf (a i) (brow (ix2 (0 : Fin 1) (i 1)))) (FloatOps.ofBits .f32 0x00000000#32))
    (res i)

/-- `linRow` is row-local: entry (r, c) sees the left operand's row r, the weights' column c and the bias row's entry c
    only — so a block of rows of the result is the result of the block of rows. -/
theorem linRow_congr {A' : Nat} (x : (⟨2, ![A, K]⟩ : Shape).Idx → Ideal .f32) (x' : (⟨2, ![A', K]⟩ : Shape).Idx → Ideal .f32)
    (w w' : (⟨2, ![K, B]⟩ : Shape).Idx → Ideal .f32) (brow brow' : (⟨2, ![1, B]⟩ : Shape).Idx → Ideal .f32)
    (r : Fin A) (r' : Fin A') (c : Fin B)
    (hx : ∀ k : Fin K, x (ix2 r k) = x' (ix2 r' k)) (hw : ∀ k : Fin K, w (ix2 k c) = w' (ix2 k c))
    (hb : brow (ix2 (0 : Fin 1) c) = brow' (ix2 (0 : Fin 1) c)) :
    linRow x w brow (ix2 r c) = linRow x' w' brow' (ix2 r' c) := by
  show FloatOps.addf (∑ k : Fin K, x (ix2 r k) * w (ix2 k c)) (brow (ix2 (0 : Fin 1) c))
    = FloatOps.addf (∑ k : Fin K, x' (ix2 r' k) * w' (ix2 k c)) (brow' (ix2 (0 : Fin 1) c))
  rw [hb]
  refine congrArg (fun s => FloatOps.addf s (brow' (ix2 (0 : Fin 1) c))) (Finset.sum_congr rfl fun k _ => ?_)
  rw [hx k, hw k]

/-- `actRes` is pointwise but for the bias row: entry (r, c) sees the entries (r, c) of the two arrays and the bias row's
    entry c only. -/
theorem actRes_congr {A' : Nat} (a res : (⟨2, ![A, B]⟩ : Shape).Idx → Ideal .f32) (a' res' : (⟨2, ![A', B]⟩ : Shape).Idx → Ideal .f32)
    (brow brow' : (⟨2, ![1, B]⟩ : Shape).Idx → Ideal .f32) (r : Fin A) (r' : Fin A') (c : Fin B)
    (ha : a (ix2 r c) = a' (ix2 r' c)) (hb : brow (ix2 (0 : Fin 1) c) = brow' (ix2 (0 : Fin 1) c))
    (hr : res (ix2 r c) = res' (ix2 r' c)) :
    actRes a brow res (ix2 r c) = actRes a' brow' res' (ix2 r' c) := by
  show FloatOps.addf (FloatOps.maximumf (FloatOps.addf (a (ix2 r c)) (brow (ix2 (0 : Fin 1) c))) _) (res (ix2 r c))
    = FloatOps.addf (FloatOps.maximumf (FloatOps.addf (a' (ix2 r' c)) (brow' (ix2 (0 : Fin 1) c))) _) (res' (ix2 r' c))
  rw [ha, hb, hr]

/-- A kernel's spelling of the product plus the bias row, read at (r, c). -/
theorem kernelLin_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (x : FVec Ideal ⟨2, ![A, K]⟩ .f32) (w : FVec Ideal ⟨2, ![K, B]⟩ .f32) (brow : FVec Ideal ⟨2, ![1, B]⟩ .f32)
    (hr : (⟨2, ![1, B]⟩ : Shape).Broadcasts ⟨2, ![A, B]⟩) (r : Fin A) (c : Fin B) :
    addf (matmul d none (truncf ψ x hb) (truncf ψ w hb) (constant ⟨2, ![A, B]⟩ .f32 0x00000000#32))
        (broadcastTo ⟨2, ![A, B]⟩ brow hr) (ix2 r c)
      = linRow x w brow (ix2 r c) := by
  show FloatOps.addf (matmul d none (truncf ψ x hb) (truncf ψ w hb) _ (ix2 r c)) (broadcastTo ⟨2, ![A, B]⟩ brow hr (ix2 r c)) = _
  rw [kernelDot_apply d h1 h2 h3 h4 h5 h6 hb x w r c, broadcastTo_1b_ab_apply brow hr r c]
  rfl

/-- A kernel's spelling of bias row, rectifier and residual, read at (r, c). -/
theorem kernelActRes_apply (a res : FVec Ideal ⟨2, ![A, B]⟩ .f32) (brow : FVec Ideal ⟨2, ![1, B]⟩ .f32)
    (hr : (⟨2, ![1, B]⟩ : Shape).Broadcasts ⟨2, ![A, B]⟩) (r : Fin A) (c : Fin B) :
    addf (maximumf (addf a (broadcastTo ⟨2, ![A, B]⟩ brow hr))
        (broadcast ⟨2, ![A, B]⟩ (Scalar.ofBits (F := Ideal) .f32 0x00000000#32))) res (ix2 r c)
      = actRes a brow res (ix2 r c) := by
  show FloatOps.addf (FloatOps.maximumf (FloatOps.addf (a (ix2 r c)) (broadcastTo ⟨2, ![A, B]⟩ brow hr (ix2 r c))) _) (res (ix2 r c)) = _
  rw [broadcastTo_1b_ab_apply brow hr r c]
  rfl

/-! ## The host's spellings, as whole arrays -/

/-- The host's product plus a bias vector [B] broadcast into a row and then over the rows is `linRow` of the vector
    laid as a row. -/
theorem hostLin_eq (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ .f32) (w : FVec Ideal ⟨2, ![K, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (hc : (⟨1, ![B]⟩ : Shape).ShapeCasts ⟨2, ![1, B]⟩) :
    addf (Host.dotGeneral d none x w)
        (broadcastInDim ⟨2, ![A, B]⟩ (![0, 1] : Fin 2 → Fin 2) g2 (broadcastInDim ⟨2, ![1, B]⟩ (![1] : Fin 1 → Fin 2) g1 b))
      = linRow x w (shapeCast ⟨2, ![1, B]⟩ b hc) := by
  funext i
  obtain ⟨r, c, rfl⟩ : ∃ (r : Fin A) (c : Fin B), i = ix2 r c := ⟨i 0, i 1, eq_ix2 i⟩
  show FloatOps.addf (Host.dotGeneral d none x w (ix2 r c))
      (broadcastInDim ⟨2, ![A, B]⟩ (![0, 1] : Fin 2 → Fin 2) g2 (broadcastInDim ⟨2, ![1, B]⟩ (![1] : Fin 1 → Fin 2) g1 b) (ix2 r c))
    = FloatOps.addf (∑ k : Fin K, x (ix2 r k) * w (ix2 k c)) (shapeCast ⟨2, ![1, B]⟩ b hc (ix2 (0 : Fin 1) c))
  rw [hostDot_apply d h1 h2 h3 h4 h5 h6 x w r c, hostRow_apply (A := A) b g1 g2 r c, shapeCast_a_1a_apply b hc 0 c]

/-- The host's bare product is `linRow` with a row of zeros: x + 0 = x on every extended real. -/
theorem hostDot_eq (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ .f32) (w : FVec Ideal ⟨2, ![K, B]⟩ .f32)
    (zrow : (⟨2, ![1, B]⟩ : Shape).Idx → Ideal .f32) (hz : ∀ c : Fin B, zrow (ix2 (0 : Fin 1) c) = (0 : EReal)) :
    Host.dotGeneral d none x w = linRow x w zrow := by
  funext i
  obtain ⟨r, c, rfl⟩ : ∃ (r : Fin A) (c : Fin B), i = ix2 r c := ⟨i 0, i 1, eq_ix2 i⟩
  show Host.dotGeneral d none x w (ix2 r c) = (∑ k : Fin K, x (ix2 r k) * w (ix2 k c)) + zrow (ix2 (0 : Fin 1) c)
  rw [hostDot_apply d h1 h2 h3 h4 h5 h6 x w r c, hz c, add_zero]

/-- The host's bias (a vector broadcast twice), rectifier (against a broadcast rank-0 zero) and residual is `actRes` of
    the vector laid as a row. -/
theorem hostActRes_eq (a res : FVec Ideal ⟨2, ![A, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (g0 : (⟨0, ![]⟩ : Shape).BroadcastsInDim ⟨2, ![A, B]⟩ (![] : Fin 0 → Fin 2))
    (hc : (⟨1, ![B]⟩ : Shape).ShapeCasts ⟨2, ![1, B]⟩) :
    addf (maximumf
          (addf a (broadcastInDim ⟨2, ![A, B]⟩ (![0, 1] : Fin 2 → Fin 2) g2 (broadcastInDim ⟨2, ![1, B]⟩ (![1] : Fin 1 → Fin 2) g1 b)))
          (broadcastInDim ⟨2, ![A, B]⟩ (![] : Fin 0 → Fin 2) g0 (constant (F := Ideal) ⟨0, ![]⟩ .f32 0x00000000#32))) res
      = actRes a (shapeCast ⟨2, ![1, B]⟩ b hc) res := by
  funext i
  obtain ⟨r, c, rfl⟩ : ∃ (r : Fin A) (c : Fin B), i = ix2 r c := ⟨i 0, i 1, eq_ix2 i⟩
  show FloatOps.addf (FloatOps.maximumf (FloatOps.addf (a (ix2 r c))
        (broadcastInDim ⟨2, ![A, B]⟩ (![0, 1] : Fin 2 → Fin 2) g2 (broadcastInDim ⟨2, ![1, B]⟩ (![1] : Fin 1 → Fin 2) g1 b) (ix2 r c))) _) (res (ix2 r c))
    = FloatOps.addf (FloatOps.maximumf (FloatOps.addf (a (ix2 r c)) (shapeCast ⟨2, ![1, B]⟩ b hc (ix2 (0 : Fin 1) c))) _) (res (ix2 r c))
  rw [hostRow_apply (A := A) b g1 g2 r c, shapeCast_a_1a_apply b hc 0 c]
  rfl

end Cert.Lib.GcnDense

end
-- ==== Proof.Stages.lean ====
/-
  THE HOST STAGES SHARED BY THE TWO PROGRAMS, each named once as a function of its operands.

  Both programs build the graph the same way and differ only in how the dense layers are computed; everything else
  — the edge lists with a self-loop appended per node, the symmetric degree normalisation, the aggregation of messages
  over the edges, the two read-out heads — is the same chain of host operations on both sides.  Naming each chain as
  one function lets the comparison of the programs go through them by congruence, without ever opening a gather or a
  scatter:

  * `edges e`      — an edge end-point list [600000] with the node numbers 0 … 99999 appended;
  * `wrapIdx s`    — a list of node numbers made a column of gather indices, a negative one moved up by 100000;
  * `invSqrtDeg d` — per node, 1/√(in-degree counted with the self-loop) where that degree is positive, else 0;
  * `edgeNorm s d` — per edge, the product of the two end-points' factors (times the unit edge weight);
  * `aggregate M s d n` — per node, the sum over its incoming edges of the source's row of M scaled by the edge's
                        normalisation: a scatter-add into zeros of the gathered, scaled rows;
  * `headAt H idx w b`  — rows `idx` of H times the column w plus b, flattened.
-/
import proofs.«137977_j60172491817222_1_alg».proof.Proof.Gen.KernelIdeal
import proofs.«137977_j60172491817222_1_alg».proof.Proof.LibGcnDense

noncomputable section

namespace Cert.KernelIdeal.Stages

open Cert.KernelIdeal Cert.KernelIdeal.Gen Idealize.ShloMosaic Cert.Lib.GcnDense

/-- An end-point list of the 600000 edges followed by the node numbers 0 … 99999: a self-loop per node. -/
def edges (e : IVec S600000 32) : IVec S700000 32 :=
  concatenate S700000 0 [⟨S600000, e⟩, ⟨S100000, (iotaInDim S100000 32 0)⟩] concatenates_S600000_S100000_S700000_d0

/-- Node numbers as a column of gather indices; a negative number is moved up by the number of nodes. -/
def wrapIdx (s : IVec S700000 32) : IVec S700000x1 32 :=
  broadcastInDim S700000x1 ![0] bcast_S700000_S700000x1_0
    (select (cmpi .slt s (broadcastInDim S700000 ![] bcast_S_S700000 (constantI S_ 32 0#32)))
      (addi s (broadcastInDim S700000 ![] bcast_S_S700000 (constantI S_ 32 100000#32))) s)

/-- The in-degree of every node, each edge (self-loops included) counting one. -/
def degree (d : IVec S700000 32) : FVec Ideal S100000 .f32 :=
  Host.scatterAdd scatter_S100000_S700000x1_S700000_n_0_0_1
    (broadcastInDim S100000 ![] bcast_S_S100000 (constant (F := Ideal) S_ .f32 0x00000000#32))
    (broadcastInDim S700000x1 ![0] bcast_S700000_S700000x1_0 d)
    (broadcastInDim S700000 ![] bcast_S_S700000 (constant (F := Ideal) S_ .f32 0x3F800000#32))

/-- 1/√degree where the degree is positive, 0 elsewhere. -/
def invSqrtDeg (d : IVec S700000 32) : FVec Ideal S100000 .f32 :=
  select (cmpf .ogt (degree d) (broadcastInDim S100000 ![] bcast_S_S100000 (constant (F := Ideal) S_ .f32 0x00000000#32)))
    (Host.rsqrt (degree d))
    (broadcastInDim S100000 ![] bcast_S_S100000 (id (constant (F := Ideal) S_ .f32 0x00000000#32)))

/-- Per edge: the source's factor times the unit weight times the destination's factor. -/
def edgeNorm (s d : IVec S700000 32) : FVec Ideal S700000 .f32 :=
  mulf
    (mulf (Host.gather gather_S100000_S700000x1_S700000_n_0_n_n_0_1_1 (invSqrtDeg d) (wrapIdx s))
      (broadcastInDim S700000 ![] bcast_S_S700000 (constant (F := Ideal) S_ .f32 0x3F800000#32)))
    (Host.gather gather_S100000_S700000x1_S700000_n_0_n_n_0_1_1 (invSqrtDeg d) (wrapIdx d))

/-- Per node, the sum over its incoming edges of the source's row of M scaled by the edge's normalisation. -/
def aggregate (M : FVec Ideal S100000x128 .f32) (s d : IVec S700000 32)
    (n : FVec Ideal S700000 .f32) : FVec Ideal S100000x128 .f32 :=
  Host.scatterAdd scatter_S100000x128_S700000x1_S700000x128_1_0_0_1
    (broadcastInDim S100000x128 ![] bcast_S_S100000x128 (constant (F := Ideal) S_ .f32 0x00000000#32))
    (broadcastInDim S700000x1 ![0] bcast_S700000_S700000x1_0 d)
    (mulf (Host.gather gather_S100000x128_S700000x1_S700000x128_1_0_n_n_0_1_1128 M (wrapIdx s))
      (broadcastInDim S700000x128 ![0, 1] bcast_S700000x1_S700000x128_0_1 (broadcastInDim S700000x1 ![0] bcast_S700000_S700000x1_0 n)))

/-- The tool nodes' read-out: the rows of H at the 99000 tool nodes (a negative index moved up by 100000) times the
    output column plus the output bias, flattened to a vector. -/
def toolHead (H : FVec Ideal S100000x128 .f32) (idx : IVec S99000 32)
    (w : FVec Ideal S128x1 .f32) (b : FVec Ideal S1 .f32) :
    FVec Ideal S99000 .f32 :=
  shapeCast S99000
    (addf
      (Host.dotGeneral dot_S99000x128_S128x1_S99000x1_1_0_0_1_n_n none
        (Host.gather gather_S100000x128_S99000x1_S99000x128_1_0_n_n_0_1_1128 H
          (broadcastInDim S99000x1 ![0] bcast_S99000_S99000x1_0
            (select (cmpi .slt idx (broadcastInDim S99000 ![] bcast_S_S99000 (constantI S_ 32 0#32)))
              (addi idx (broadcastInDim S99000 ![] bcast_S_S99000 (constantI S_ 32 100000#32))) idx)))
        w)
      (broadcastInDim S99000x1 ![0, 1] bcast_S1x1_S99000x1_0_1 (broadcastInDim S1x1 ![1] bcast_S1_S1x1_1 b)))
    shapeCasts_S99000x1_S99000

/-- The query nodes' read-out: the same at the 1000 query nodes. -/
def queryHead (H : FVec Ideal S100000x128 .f32) (idx : IVec S1000 32)
    (w : FVec Ideal S128x1 .f32) (b : FVec Ideal S1 .f32) :
    FVec Ideal S1000 .f32 :=
  shapeCast S1000
    (addf
      (Host.dotGeneral dot_S1000x128_S128x1_S1000x1_1_0_0_1_n_n none
        (Host.gather gather_S100000x128_S1000x1_S1000x128_1_0_n_n_0_1_1128 H
          (broadcastInDim S1000x1 ![0] bcast_S1000_S1000x1_0
            (select (cmpi .slt idx (broadcastInDim S1000 ![] bcast_S_S1000 (constantI S_ 32 0#32)))
              (addi idx (broadcastInDim S1000 ![] bcast_S_S1000 (constantI S_ 32 100000#32))) idx)))
        w)
      (broadcastInDim S1000x1 ![0, 1] bcast_S1x1_S1000x1_0_1 (broadcastInDim S1x1 ![1] bcast_S1_S1x1_1 b)))
    shapeCasts_S1000x1_S1000

/-- The graph number of every tool node. -/
def batchOf (bv : IVec S100000 32) (idx : IVec S99000 32) :
    IVec S99000 32 :=
  Host.gather gather_S100000_S99000x1_S99000_n_0_n_n_0_1_1 bv
    (broadcastInDim S99000x1 ![0] bcast_S99000_S99000x1_0
      (select (cmpi .slt idx (broadcastInDim S99000 ![] bcast_S_S99000 (constantI S_ 32 0#32)))
        (addi idx (broadcastInDim S99000 ![] bcast_S_S99000 (constantI S_ 32 100000#32))) idx))

/-! ## The network, composed -/

/-- A bias vector laid as a row [1, 128]. -/
def biasRow (b : FVec Ideal S128 .f32) : FVec Ideal S1x128 .f32 :=
  shapeCast S1x128 b shapeCasts_S128_S1x128

/-- The row of zeros a bias-free layer is given. -/
def zeroRow : FVec Ideal S1x128 .f32 :=
  shapeCast S1x128 (broadcastInDim S128 ![] bcast_S_S128 (constant (F := Ideal) S_ .f32 0x00000000#32)) shapeCasts_S128_S1x128

/-- The input projection: x · W + b. -/
def feat0 (x : FVec Ideal S100000x768 .f32) (w : FVec Ideal S768x128 .f32)
    (b : FVec Ideal S128 .f32) : FVec Ideal S100000x128 .f32 :=
  linRow x w (biasRow b)

/-- One graph-convolution layer with residual: h ↦ max (aggregate (h · W) + b) 0 + h. -/
def layer (h : FVec Ideal S100000x128 .f32) (w : FVec Ideal S128x128 .f32)
    (b : FVec Ideal S128 .f32) (s d : IVec S700000 32) :
    FVec Ideal S100000x128 .f32 :=
  actRes (aggregate (linRow h w zeroRow) s d (edgeNorm s d)) (biasRow b) h

end Cert.KernelIdeal.Stages

end
-- ==== Proof.HostSteps.lean ====
/-
  EACH STRETCH OF HOST OPERATIONS OF THE KERNEL PROGRAM, READ AT THE BUFFERS THE LATER SEGMENTS USE, from ANY contents
  `V` of the TensorCore's buffers at the stretch's start: the buffer a stretch writes holds the named stage of the
  buffers the stretch reads.  Stating these over a variable `V` keeps the earlier segments folded.
-/
import proofs.«137977_j60172491817222_1_alg».proof.Proof.Gen.KernelIdeal.Launch
import proofs.«137977_j60172491817222_1_alg».proof.Proof.Stages
import Idealize.ShloMosaic.Lib.StableHlo.Run

set_option maxRecDepth 16384

noncomputable section

namespace Cert.KernelIdeal.HostSteps

open Cert.KernelIdeal Cert.KernelIdeal.Gen Cert.KernelIdeal.Stages
open Idealize.ShloMosaic Idealize.ShloMosaic.TcCoe Idealize.SL.Sem Idealize.ShloMosaic.StableHlo

variable (V : Valuation τ sig (Elt Ideal))

/-! ## The prologue: edge lists, degrees, normalisation, the first bias row -/

theorem src0 : StableHlo.after hostOps0 V (Proc.devRef .tc main_v1) = edges (V (Proc.devRef .tc main_arg1)) := by
  after_results_simp
  rfl

theorem dst0 : StableHlo.after hostOps0 V (Proc.devRef .tc main_v2) = edges (V (Proc.devRef .tc main_arg2)) := by
  after_results_simp
  rfl

theorem ones0 : StableHlo.after hostOps0 V (Proc.devRef .tc main_v3)
    = (broadcastInDim S700000 ![] bcast_S_S700000 (constant (F := Ideal) S_ .f32 0x3F800000#32) : FVec Ideal S700000 .f32) := by
  after_results_simp

theorem pos0 : StableHlo.after hostOps0 V (Proc.devRef .tc main_v8)
    = cmpf .ogt (degree (edges (V (Proc.devRef .tc main_arg2)))) (broadcastInDim S100000 ![] bcast_S_S100000 (constant S_ .f32 0x00000000#32)) := by
  after_results_simp
  rfl

theorem rsq0 : StableHlo.after hostOps0 V (Proc.devRef .tc main_v9) = Host.rsqrt (degree (edges (V (Proc.devRef .tc main_arg2)))) := by
  after_results_simp
  rfl

theorem zero0 : StableHlo.after hostOps0 V (Proc.devRef .tc main_cst_2) = (constant (F := Ideal) S_ .f32 0x00000000#32 : FVec Ideal S_ .f32) := by
  after_results_simp

theorem dinv1 : StableHlo.after hostOps0_1 V (Proc.devRef .tc main_v10)
    = select (V (Proc.devRef .tc main_v8)) (V (Proc.devRef .tc main_v9))
        (broadcastInDim S100000 ![] bcast_S_S100000 (id (V (Proc.devRef .tc main_cst_2)))) := by
  after_results_simp
  rfl

theorem norm2 : StableHlo.after hostOps0_2 V (Proc.devRef .tc main_v26)
    = (mulf
        (mulf (Host.gather gather_S100000_S700000x1_S700000_n_0_n_n_0_1_1 (V (Proc.devRef .tc main_v10) : FVec Ideal S100000 .f32) (wrapIdx (V (Proc.devRef .tc main_v1))))
          (V (Proc.devRef .tc main_v3) : FVec Ideal S700000 .f32))
        (Host.gather gather_S100000_S700000x1_S700000_n_0_n_n_0_1_1 (V (Proc.devRef .tc main_v10) : FVec Ideal S100000 .f32) (wrapIdx (V (Proc.devRef .tc main_v2)))) : FVec Ideal S700000 .f32) := by
  after_results_simp
  rfl

theorem brow2 : StableHlo.after hostOps0_2 V (Proc.devRef .tc main_v27) = biasRow (V (Proc.devRef .tc main_arg7)) := by
  after_results_simp
  rfl

/-! ## Between the regions -/

theorem zrow1 : StableHlo.after hostOps1 V (Proc.devRef .tc main_v30) = zeroRow := by
  after_results_simp
  rfl

theorem agg2 : StableHlo.after hostOps2 V (Proc.devRef .tc main_v44)
    = aggregate (V (Proc.devRef .tc main_v31)) (V (Proc.devRef .tc main_v1)) (V (Proc.devRef .tc main_v2)) (V (Proc.devRef .tc main_v26)) := by
  after_results_simp
  rfl

theorem brow2' : StableHlo.after hostOps2 V (Proc.devRef .tc main_v45) = biasRow (V (Proc.devRef .tc main_arg9)) := by
  after_results_simp
  rfl

theorem zrow3 : StableHlo.after hostOps3 V (Proc.devRef .tc main_v48) = zeroRow := by
  after_results_simp
  rfl

theorem agg4 : StableHlo.after hostOps4 V (Proc.devRef .tc main_v62)
    = aggregate (V (Proc.devRef .tc main_v49)) (V (Proc.devRef .tc main_v1)) (V (Proc.devRef .tc main_v2)) (V (Proc.devRef .tc main_v26)) := by
  after_results_simp
  rfl

theorem brow4 : StableHlo.after hostOps4 V (Proc.devRef .tc main_v63) = biasRow (V (Proc.devRef .tc main_arg11)) := by
  after_results_simp
  rfl

/-! ## The epilogue: the read-out heads -/

theorem tool5 : StableHlo.after hostOps5 V (Proc.devRef .tc main_v76)
    = toolHead (V (Proc.devRef .tc main_v64)) (V (Proc.devRef .tc main_arg4)) (V (Proc.devRef .tc main_arg12)) (V (Proc.devRef .tc main_arg13)) := by
  after_results_simp
  rfl

theorem query5 : StableHlo.after hostOps5 V (Proc.devRef .tc main_v88)
    = queryHead (V (Proc.devRef .tc main_v64)) (V (Proc.devRef .tc main_arg5)) (V (Proc.devRef .tc main_arg12)) (V (Proc.devRef .tc main_arg13)) := by
  after_results_simp
  rfl

theorem batch5 : StableHlo.after hostOps5 V (Proc.devRef .tc main_v95)
    = batchOf (V (Proc.devRef .tc main_arg3)) (V (Proc.devRef .tc main_arg4)) := by
  after_results_simp
  rfl

end Cert.KernelIdeal.HostSteps

end
-- ==== Proof.Region0.lean ====
/-
  REGION 0: a row-tiled dense layer.  The region's grid has 20 points; point t takes rows 5000·t … 5000·t + 4999 of
  the left operand, the whole weight matrix and the whole bias row, and writes the same rows of the output.  Its
  body computes, on its block, the plain product plus the bias row, so every block of the output array is the block of
  ONE whole-array function — `linRow` of the three arrays as the region finds them — and the blocks tile the array.
-/
import proofs.«137977_j60172491817222_1_alg».proof.Proof.Gen.KernelIdeal.Frame
import proofs.«137977_j60172491817222_1_alg».proof.Proof.LibGcnDense

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.GcnDense

variable (V : (c : Dev nD) → (b : Ref sig .tc) → Buf (Elt Ideal) ((c : Thread nD τ).loc b))

theorem offs : (![0, 0] : Fin 2 → Nat) = fun _ => 0 := funext fun a => by fin_cases a <;> rfl

/-- The body's value on a block, entry by entry: the product of the block's rows with the weights, plus the bias row. -/
theorem pay_apply (x0 : FVec Ideal S5000x768 .f32) (x1 : FVec Ideal S768x128 .f32) (x2 : FVec Ideal S1x128 .f32)
    (r : Fin 5000) (q : Fin 128) :
    k0_pay1 x0 x1 x2 (ix2 r q) = linRow x0 x1 x2 (ix2 r q) := by
  show addf (matmul dot_S5000x768_S768x128_S5000x128_1_0_0_1_n_n none (truncf .bf16 x0 bitsLt_bf16_f32)
      (truncf .bf16 x1 bitsLt_bf16_f32) (constant S5000x128 .f32 0x00000000#32))
    (broadcastTo S5000x128 (shapeCast S1x128 x2 shapeCasts_S1x128_S1x128) broadcasts_S1x128_S5000x128) (ix2 r q) = _
  rw [shapeCast_self]
  exact kernelLin_apply dot_S5000x768_S768x128_S5000x128_1_0_0_1_n_n rfl rfl rfl rfl rfl rfl bitsLt_bf16_f32 x0 x1 x2
    broadcasts_S1x128_S5000x128 r q

/-- The printed index maps over the grid: the left operand and the output move down one block of rows per point,
    the weights and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 20 :=
  (by decide +kernel : ∀ t : Fin grid0.N, _)

/-- Row r of point t's block is row 5000·t + r of the array. -/
def rowOf (t : Fin cfg0.N) (r : Fin 5000) : Fin 100000 :=
  ⟨t.val * 5000 + r.val, by have := (idx_facts t).2.2.2.2.2.2.2.2; have := r.isLt; omega⟩

/-- The left operand's block at point t, read at (r, k). -/
theorem read_x (c : Dev nD) (t : Fin cfg0.N) (r : Fin 5000) (k : Fin 768) :
    iblk0 V c 0 t (ix2 r k) = V c main_arg0 (ix2 (rowOf t r) k) := by
  obtain ⟨e0, e1, -⟩ := idx_facts t
  show V c main_arg0 (((cfg0.win 0).blk t).view.emb (ix2 r k)) = V c main_arg0 (ix2 (rowOf t r) k)
  refine congrArg (V c main_arg0) (funext fun a => Fin.ext ?_)
  match a with
  | ⟨0, _⟩ => show win0_0.index t (0 : Fin 2) * 5000 + 1 * r.val = t.val * 5000 + r.val; omega
  | ⟨1, _⟩ => show win0_0.index t (1 : Fin 2) * 768 + 1 * k.val = k.val; omega

/-- The weights' block at every point is the whole matrix. -/
theorem read_w (c : Dev nD) (t : Fin cfg0.N) (k : Fin 768) (q : Fin 128) :
    iblk0 V c 1 t (ix2 k q) = V c main_arg6 (ix2 k q) := by
  obtain ⟨-, -, e2, e3, -⟩ := idx_facts t
  show V c main_arg6 (((cfg0.win 1).blk t).view.emb (ix2 k q)) = V c main_arg6 (ix2 k q)
  refine congrArg (V c main_arg6) (funext fun a => Fin.ext ?_)
  match a with
  | ⟨0, _⟩ => show win0_1.index t (0 : Fin 2) * 768 + 1 * k.val = k.val; omega
  | ⟨1, _⟩ => show win0_1.index t (1 : Fin 2) * 128 + 1 * q.val = q.val; omega

/-- The bias row's block at every point is the whole row. -/
theorem read_b (c : Dev nD) (t : Fin cfg0.N) (q : Fin 128) :
    iblk0 V c 2 t (ix2 (0 : Fin 1) q) = V c main_v27 (ix2 (0 : Fin 1) q) := by
  obtain ⟨-, -, -, -, e4, e5, -⟩ := idx_facts t
  show V c main_v27 (((cfg0.win 2).blk t).view.emb (ix2 (0 : Fin 1) q)) = V c main_v27 (ix2 (0 : Fin 1) q)
  refine congrArg (V c main_v27) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Entry (r, q) of the output's block at point t sits at (5000·t + r, q) of the array. -/
theorem emb_out (t : Fin cfg0.N) (r : Fin 5000) (q : Fin 128) :
    ((cfg0.win 3).blk t).view.emb (ix2 r q) = ix2 (rowOf t r) q := by
  obtain ⟨-, -, -, -, -, -, e6, e7, -⟩ := idx_facts t
  refine funext fun a => Fin.ext ?_
  match a with
  | ⟨0, _⟩ => show win0_3.index t (0 : Fin 2) * 5000 + 1 * r.val = t.val * 5000 + r.val; omega
  | ⟨1, _⟩ => show win0_3.index t (1 : Fin 2) * 128 + 1 * q.val = q.val; omega

/-- What point t writes back is block t of `linRow` of the three arrays as the region finds them. -/
theorem flushed_eq (c : Dev nD) (t : Fin cfg0.N) :
    (dat0 V c).flushed 3 t
      = ((cfg0.win 3).blk t).view.read (Elt Ideal) (linRow (V c main_arg0) (V c main_arg6) (V c main_v27)) := by
  show (cfg0.win 3).cut (grid0.coords t) ((dat0 V c).after 3 t) = _
  rw [after0_3]
  unfold out0_3
  rw [View.canon_unit_zero offs]
  simp only [View.ld_unit_zero (S := S5000x768) offs, View.ld_unit_zero (S := S768x128) offs, View.ld_unit_zero (S := S1x128) offs]
  funext j
  obtain ⟨r, q, rfl⟩ : ∃ (r : Fin 5000) (q : Fin 128), j = ix2 r q := ⟨j 0, j 1, eq_ix2 j⟩
  show k0_pay1 (iblk0 V c 0 t) (iblk0 V c 1 t) (iblk0 V c 2 t) (ix2 r q)
    = linRow (V c main_arg0) (V c main_arg6) (V c main_v27) (((cfg0.win 3).blk t).view.emb (ix2 r q))
  rw [emb_out t r q]
  refine (pay_apply (iblk0 V c 0 t) (iblk0 V c 1 t) (iblk0 V c 2 t) r q).trans ?_
  exact linRow_congr (iblk0 V c 0 t) (V c main_arg0) (iblk0 V c 1 t) (V c main_arg6) (iblk0 V c 2 t) (V c main_v27)
    r (rowOf t r) q (fun k => read_x V c t r k) (fun k => read_w V c t k q) (read_b V c t q)

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v28).slice (win0_3.rect t)).set ↔ _
  rw [View.set_slice_whole, Rect.mem_set_unit]
  exact Iff.rfl

/-- The blocks tile the array: row R lies in the block of point R / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := rfl
  let t : Fin cfg0.N := ⟨(i 0).val / 5000, by rw [hN]; omega⟩
  obtain ⟨-, -, -, -, -, -, e6, e7, -⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: `linRow` of the left operand, the weights and the bias row as the region finds
    them. -/
theorem final (c : Dev nD) :
    (dat0 V c).arrAt 3 cfg0.N = linRow (V c main_arg0) (V c main_arg6) (V c main_v27) :=
  (dat0 V c).arrAt_eq_of_cover 3 _ (fun t _ => flushed_eq V c t) cover

/-- The same with the three arrays named. -/
theorem final_of (c : Dev nD) (X0 : (⟨S100000x768, .f32⟩ : BufTy).Contents (Elt Ideal)) (X1 : (⟨S768x128, .f32⟩ : BufTy).Contents (Elt Ideal))
    (X2 : (⟨S1x128, .f32⟩ : BufTy).Contents (Elt Ideal))
    (h0 : V c main_arg0 = X0) (h1 : V c main_arg6 = X1) (h2 : V c main_v27 = X2) :
    (dat0 V c).arrAt 3 cfg0.N = linRow X0 X1 X2 := by
  subst h0 h1 h2
  exact final V c

end Cert.KernelIdeal.Region0

end
-- ==== Proof.Region1.lean ====
/-
  REGION 1: a row-tiled dense layer.  The region's grid has 20 points; point t takes rows 5000·t … 5000·t + 4999 of
  the left operand, the whole weight matrix and the whole bias row, and writes the same rows of the output.  Its
  body computes, on its block, the plain product plus the bias row, so every block of the output array is the block of
  ONE whole-array function — `linRow` of the three arrays as the region finds them — and the blocks tile the array.
-/
import proofs.«137977_j60172491817222_1_alg».proof.Proof.Gen.KernelIdeal.Frame
import proofs.«137977_j60172491817222_1_alg».proof.Proof.LibGcnDense

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.GcnDense

variable (V : (c : Dev nD) → (b : Ref sig .tc) → Buf (Elt Ideal) ((c : Thread nD τ).loc b))

theorem offs : (![0, 0] : Fin 2 → Nat) = fun _ => 0 := funext fun a => by fin_cases a <;> rfl

/-- The body's value on a block, entry by entry: the product of the block's rows with the weights, plus the bias row. -/
theorem pay_apply (x0 : FVec Ideal S5000x128 .f32) (x1 : FVec Ideal S128x128 .f32) (x2 : FVec Ideal S1x128 .f32)
    (r : Fin 5000) (q : Fin 128) :
    k1_pay1 x0 x1 x2 (ix2 r q) = linRow x0 x1 x2 (ix2 r q) := by
  show addf (matmul dot_S5000x128_S128x128_S5000x128_1_0_0_1_n_n none (truncf .bf16 (shapeCast S5000x128 x0 shapeCasts_S5000x128_S5000x128) bitsLt_bf16_f32)
      (truncf .bf16 x1 bitsLt_bf16_f32) (constant S5000x128 .f32 0x00000000#32))
    (broadcastTo S5000x128 (shapeCast S1x128 x2 shapeCasts_S1x128_S1x128) broadcasts_S1x128_S5000x128) (ix2 r q) = _
  rw [shapeCast_self, shapeCast_self]
  exact kernelLin_apply dot_S5000x128_S128x128_S5000x128_1_0_0_1_n_n rfl rfl rfl rfl rfl rfl bitsLt_bf16_f32 x0 x1 x2
    broadcasts_S1x128_S5000x128 r q

/-- The printed index maps over the grid: the left operand and the output move down one block of rows per point,
    the weights and the bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 20 :=
  (by decide +kernel : ∀ t : Fin grid1.N, _)

/-- Row r of point t's block is row 5000·t + r of the array. -/
def rowOf (t : Fin cfg1.N) (r : Fin 5000) : Fin 100000 :=
  ⟨t.val * 5000 + r.val, by have := (idx_facts t).2.2.2.2.2.2.2.2; have := r.isLt; omega⟩

/-- The left operand's block at point t, read at (r, k). -/
theorem read_x (c : Dev nD) (t : Fin cfg1.N) (r : Fin 5000) (k : Fin 128) :
    iblk1 V c 0 t (ix2 r k) = V c main_v28 (ix2 (rowOf t r) k) := by
  obtain ⟨e0, e1, -⟩ := idx_facts t
  show V c main_v28 (((cfg1.win 0).blk t).view.emb (ix2 r k)) = V c main_v28 (ix2 (rowOf t r) k)
  refine congrArg (V c main_v28) (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * k.val = k.val; omega

/-- The weights' block at every point is the whole matrix. -/
theorem read_w (c : Dev nD) (t : Fin cfg1.N) (k : Fin 128) (q : Fin 128) :
    iblk1 V c 1 t (ix2 k q) = V c main_arg8 (ix2 k q) := by
  obtain ⟨-, -, e2, e3, -⟩ := idx_facts t
  show V c main_arg8 (((cfg1.win 1).blk t).view.emb (ix2 k q)) = V c main_arg8 (ix2 k q)
  refine congrArg (V c main_arg8) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias row's block at every point is the whole row. -/
theorem read_b (c : Dev nD) (t : Fin cfg1.N) (q : Fin 128) :
    iblk1 V c 2 t (ix2 (0 : Fin 1) q) = V c main_v30 (ix2 (0 : Fin 1) q) := by
  obtain ⟨-, -, -, -, e4, e5, -⟩ := idx_facts t
  show V c main_v30 (((cfg1.win 2).blk t).view.emb (ix2 (0 : Fin 1) q)) = V c main_v30 (ix2 (0 : Fin 1) q)
  refine congrArg (V c main_v30) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Entry (r, q) of the output's block at point t sits at (5000·t + r, q) of the array. -/
theorem emb_out (t : Fin cfg1.N) (r : Fin 5000) (q : Fin 128) :
    ((cfg1.win 3).blk t).view.emb (ix2 r q) = ix2 (rowOf t r) q := by
  obtain ⟨-, -, -, -, -, -, e6, e7, -⟩ := idx_facts t
  refine funext fun a => Fin.ext ?_
  match a with
  | ⟨0, _⟩ => show win1_3.index t (0 : Fin 2) * 5000 + 1 * r.val = t.val * 5000 + r.val; omega
  | ⟨1, _⟩ => show win1_3.index t (1 : Fin 2) * 128 + 1 * q.val = q.val; omega

/-- What point t writes back is block t of `linRow` of the three arrays as the region finds them. -/
theorem flushed_eq (c : Dev nD) (t : Fin cfg1.N) :
    (dat1 V c).flushed 3 t
      = ((cfg1.win 3).blk t).view.read (Elt Ideal) (linRow (V c main_v28) (V c main_arg8) (V c main_v30)) := by
  show (cfg1.win 3).cut (grid1.coords t) ((dat1 V c).after 3 t) = _
  rw [after1_3]
  unfold out1_3
  rw [View.canon_unit_zero offs]
  simp only [View.ld_unit_zero (S := S5000x128) offs, View.ld_unit_zero (S := S128x128) offs, View.ld_unit_zero (S := S1x128) offs]
  funext j
  obtain ⟨r, q, rfl⟩ : ∃ (r : Fin 5000) (q : Fin 128), j = ix2 r q := ⟨j 0, j 1, eq_ix2 j⟩
  show k1_pay1 (iblk1 V c 0 t) (iblk1 V c 1 t) (iblk1 V c 2 t) (ix2 r q)
    = linRow (V c main_v28) (V c main_arg8) (V c main_v30) (((cfg1.win 3).blk t).view.emb (ix2 r q))
  rw [emb_out t r q]
  refine (pay_apply (iblk1 V c 0 t) (iblk1 V c 1 t) (iblk1 V c 2 t) r q).trans ?_
  exact linRow_congr (iblk1 V c 0 t) (V c main_v28) (iblk1 V c 1 t) (V c main_arg8) (iblk1 V c 2 t) (V c main_v30)
    r (rowOf t r) q (fun k => read_x V c t r k) (fun k => read_w V c t k q) (read_b V c t q)

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v31).slice (win1_3.rect t)).set ↔ _
  rw [View.set_slice_whole, Rect.mem_set_unit]
  exact Iff.rfl

/-- The blocks tile the array: row R lies in the block of point R / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := rfl
  let t : Fin cfg1.N := ⟨(i 0).val / 5000, by rw [hN]; omega⟩
  obtain ⟨-, -, -, -, -, -, e6, e7, -⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region: `linRow` of the left operand, the weights and the bias row as the region finds
    them. -/
theorem final (c : Dev nD) :
    (dat1 V c).arrAt 3 cfg1.N = linRow (V c main_v28) (V c main_arg8) (V c main_v30) :=
  (dat1 V c).arrAt_eq_of_cover 3 _ (fun t _ => flushed_eq V c t) cover

/-- The same with the three arrays named. -/
theorem final_of (c : Dev nD) (X0 : (⟨S100000x128, .f32⟩ : BufTy).Contents (Elt Ideal)) (X1 : (⟨S128x128, .f32⟩ : BufTy).Contents (Elt Ideal))
    (X2 : (⟨S1x128, .f32⟩ : BufTy).Contents (Elt Ideal))
    (h0 : V c main_v28 = X0) (h1 : V c main_arg8 = X1) (h2 : V c main_v30 = X2) :
    (dat1 V c).arrAt 3 cfg1.N = linRow X0 X1 X2 := by
  subst h0 h1 h2
  exact final V c

end Cert.KernelIdeal.Region1

end
-- ==== Proof.Region2.lean ====
/-
  REGION 2: bias, rectifier and residual, row-tiled.  The region's grid has 20 points; point t takes rows
  5000·t … 5000·t + 4999 of the aggregated features and of the residual, the whole bias row, and writes the same rows
  of the output.  Its body is pointwise on its block, so every block of the output array is the block of ONE
  whole-array function — `actRes` of the three arrays as the region finds them — and the blocks tile the array.
-/
import proofs.«137977_j60172491817222_1_alg».proof.Proof.Gen.KernelIdeal.Frame
import proofs.«137977_j60172491817222_1_alg».proof.Proof.LibGcnDense

set_option maxRecDepth 16384

noncomputable section

open scoped BigOperators

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.GcnDense

variable (V : (c : Dev nD) → (b : Ref sig .tc) → Buf (Elt Ideal) ((c : Thread nD τ).loc b))

theorem offs : (![0, 0] : Fin 2 → Nat) = fun _ => 0 := funext fun a => by fin_cases a <;> rfl

/-- The body's value on a block, entry by entry: bias row added, rectified, the residual's entry added. -/
theorem pay_apply (x0 : FVec Ideal S5000x128 .f32) (x1 : FVec Ideal S1x128 .f32) (x2 : FVec Ideal S5000x128 .f32)
    (r : Fin 5000) (q : Fin 128) :
    k2_pay1 x0 x1 x2 (ix2 r q) = actRes x0 x1 x2 (ix2 r q) := by
  show addf (maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)))
    (shapeCast S5000x128 x2 shapeCasts_S5000x128_S5000x128) (ix2 r q) = _
  rw [shapeCast_self, shapeCast_self, shapeCast_self]
  exact kernelActRes_apply x0 x2 x1 broadcasts_S1x128_S5000x128 r q

/-- The printed index maps over the grid: the aggregated features, the residual and the output move down one block
    of rows per point, the bias row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 20 :=
  (by decide +kernel : ∀ t : Fin grid2.N, _)

/-- Row r of point t's block is row 5000·t + r of the array. -/
def rowOf (t : Fin cfg2.N) (r : Fin 5000) : Fin 100000 :=
  ⟨t.val * 5000 + r.val, by have := (idx_facts t).2.2.2.2.2.2.2.2; have := r.isLt; omega⟩

/-- The aggregated features' block at point t, read at (r, q). -/
theorem read_a (c : Dev nD) (t : Fin cfg2.N) (r : Fin 5000) (q : Fin 128) :
    iblk2 V c 0 t (ix2 r q) = V c main_v44 (ix2 (rowOf t r) q) := by
  obtain ⟨e0, e1, -⟩ := idx_facts t
  show V c main_v44 (((cfg2.win 0).blk t).view.emb (ix2 r q)) = V c main_v44 (ix2 (rowOf t r) q)
  refine congrArg (V c main_v44) (funext fun a => Fin.ext ?_)
  match a with
  | ⟨0, _⟩ => show win2_0.index t (0 : Fin 2) * 5000 + 1 * r.val = t.val * 5000 + r.val; omega
  | ⟨1, _⟩ => show win2_0.index t (1 : Fin 2) * 128 + 1 * q.val = q.val; omega

/-- The bias row's block at every point is the whole row. -/
theorem read_b (c : Dev nD) (t : Fin cfg2.N) (q : Fin 128) :
    iblk2 V c 1 t (ix2 (0 : Fin 1) q) = V c main_v45 (ix2 (0 : Fin 1) q) := by
  obtain ⟨-, -, e2, e3, -⟩ := idx_facts t
  show V c main_v45 (((cfg2.win 1).blk t).view.emb (ix2 (0 : Fin 1) q)) = V c main_v45 (ix2 (0 : Fin 1) q)
  refine congrArg (V c main_v45) (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- The residual's block at point t, read at (r, q). -/
theorem read_r (c : Dev nD) (t : Fin cfg2.N) (r : Fin 5000) (q : Fin 128) :
    iblk2 V c 2 t (ix2 r q) = V c main_v28 (ix2 (rowOf t r) q) := by
  obtain ⟨-, -, -, -, e4, e5, -⟩ := idx_facts t
  show V c main_v28 (((cfg2.win 2).blk t).view.emb (ix2 r q)) = V c main_v28 (ix2 (rowOf t r) q)
  refine congrArg (V c main_v28) (funext fun a => Fin.ext ?_)
  match a with
  | ⟨0, _⟩ => show win2_2.index t (0 : Fin 2) * 5000 + 1 * r.val = t.val * 5000 + r.val; omega
  | ⟨1, _⟩ => show win2_2.index t (1 : Fin 2) * 128 + 1 * q.val = q.val; omega

/-- Entry (r, q) of the output's block at point t sits at (5000·t + r, q) of the array. -/
theorem emb_out (t : Fin cfg2.N) (r : Fin 5000) (q : Fin 128) :
    ((cfg2.win 3).blk t).view.emb (ix2 r q) = ix2 (rowOf t r) q := by
  obtain ⟨-, -, -, -, -, -, e6, e7, -⟩ := idx_facts t
  refine funext fun a => Fin.ext ?_
  match a with
  | ⟨0, _⟩ => show win2_3.index t (0 : Fin 2) * 5000 + 1 * r.val = t.val * 5000 + r.val; omega
  | ⟨1, _⟩ => show win2_3.index t (1 : Fin 2) * 128 + 1 * q.val = q.val; omega

/-- What point t writes back is block t of `actRes` of the three arrays as the region finds them. -/
theorem flushed_eq (c : Dev nD) (t : Fin cfg2.N) :
    (dat2 V c).flushed 3 t
      = ((cfg2.win 3).blk t).view.read (Elt Ideal) (actRes (V c main_v44) (V c main_v45) (V c main_v28)) := by
  show (cfg2.win 3).cut (grid2.coords t) ((dat2 V c).after 3 t) = _
  rw [after2_3]
  unfold out2_3
  rw [View.canon_unit_zero offs]
  simp only [View.ld_unit_zero (S := S5000x128) offs, View.ld_unit_zero (S := S1x128) offs]
  funext j
  obtain ⟨r, q, rfl⟩ : ∃ (r : Fin 5000) (q : Fin 128), j = ix2 r q := ⟨j 0, j 1, eq_ix2 j⟩
  show k2_pay1 (iblk2 V c 0 t) (iblk2 V c 1 t) (iblk2 V c 2 t) (ix2 r q)
    = actRes (V c main_v44) (V c main_v45) (V c main_v28) (((cfg2.win 3).blk t).view.emb (ix2 r q))
  rw [emb_out t r q]
  refine (pay_apply (iblk2 V c 0 t) (iblk2 V c 1 t) (iblk2 V c 2 t) r q).trans ?_
  exact actRes_congr (iblk2 V c 0 t) (iblk2 V c 2 t) (V c main_v44) (V c main_v28) (iblk2 V c 1 t) (V c main_v45)
    r (rowOf t r) q (read_a V c t r q) (read_b V c t q) (read_r V c t r q)

/-- An index of the array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v46).slice (win2_3.rect t)).set ↔ _
  rw [View.set_slice_whole, Rect.mem_set_unit]
  exact Iff.rfl

/-- The blocks tile the array: row R lies in the block of point R / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := rfl
  let t : Fin cfg2.N := ⟨(i 0).val / 5000, by rw [hN]; omega⟩
  obtain ⟨-, -, -, -, -, -, e6, e7, -⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region: `actRes` of the aggregated features, the bias row and the residual as the
    region finds them. -/
theorem final (c : Dev nD) :
    (dat2 V c).arrAt 3 cfg2.N = actRes (V c main_v44) (V c main_v45) (V c main_v28) :=
  (dat2 V c).arrAt_eq_of_cover 3 _ (fun t _ => flushed_eq V c t) cover

/-- The same with the three arrays named. -/
theorem final_of (c : Dev nD) (X0 : (⟨S100000x128, .f32⟩ : BufTy).Contents (Elt Ideal)) (X1 : (⟨S1x128, .f32⟩ : BufTy).Contents (Elt Ideal))
    (X2 : (⟨S100000x128, .f32⟩ : BufTy).Contents (Elt Ideal))
    (h0 : V c main_v44 = X0) (h1 : V c main_v45 = X1) (h2 : V c main_v28 = X2) :
    (dat2 V c).arrAt 3 cfg2.N = actRes X0 X1 X2 := by
  subst h0 h1 h2
  exact final V c

end Cert.KernelIdeal.Region2

end
-- ==== Proof.Region3.lean ====
/-
  REGION 3: a row-tiled dense layer.  The region's grid has 20 points; point t takes rows 5000·t … 5000·t + 4999 of
  the left operand, the whole weight matrix and the whole bias row, and writes the same rows of the output.  Its
  body computes, on its block, the plain product plus the bias row, so every block of the output array is the block of
  ONE whole-array function — `linRow` of the three arrays as the region finds them — and the blocks tile the array.
-/
import proofs.«137977_j60172491817222_1_alg».proof.Proof.Gen.KernelIdeal.Frame
import proofs.«137977_j60172491817222_1_alg».proof.Proof.LibGcnDense

set_option maxRecDepth 16384

noncomputable section

open scoped BigOperators

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.GcnDense

variable (V : (c : Dev nD) → (b : Ref sig .tc) → Buf (Elt Ideal) ((c : Thread nD τ).loc b))

theorem offs : (![0, 0] : Fin 2 → Nat) = fun _ => 0 := funext fun a => by fin_cases a <;> rfl

/-- The body's value on a block, entry by entry: the product of the block's rows with the weights, plus the bias row. -/
theorem pay_apply (x0 : FVec Ideal S5000x128 .f32) (x1 : FVec Ideal S128x128 .f32) (x2 : FVec Ideal S1x128 .f32)
    (r : Fin 5000) (q : Fin 128) :
    k3_pay1 x0 x1 x2 (ix2 r q) = linRow x0 x1 x2 (ix2 r q) := by
  show addf (matmul dot_S5000x128_S128x128_S5000x128_1_0_0_1_n_n none (truncf .bf16 (shapeCast S5000x128 x0 shapeCasts_S5000x128_S5000x128) bitsLt_bf16_f32)
      (truncf .bf16 x1 bitsLt_bf16_f32) (constant S5000x128 .f32 0x00000000#32))
    (broadcastTo S5000x128 (shapeCast S1x128 x2 shapeCasts_S1x128_S1x128) broadcasts_S1x128_S5000x128) (ix2 r q) = _
  rw [shapeCast_self, shapeCast_self]
  exact kernelLin_apply dot_S5000x128_S128x128_S5000x128_1_0_0_1_n_n rfl rfl rfl rfl rfl rfl bitsLt_bf16_f32 x0 x1 x2
    broadcasts_S1x128_S5000x128 r q

/-- The printed index maps over the grid: the left operand and the output move down one block of rows per point,
    the weights and the bias row stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 20 :=
  (by decide +kernel : ∀ t : Fin grid3.N, _)

/-- Row r of point t's block is row 5000·t + r of the array. -/
def rowOf (t : Fin cfg3.N) (r : Fin 5000) : Fin 100000 :=
  ⟨t.val * 5000 + r.val, by have := (idx_facts t).2.2.2.2.2.2.2.2; have := r.isLt; omega⟩

/-- The left operand's block at point t, read at (r, k). -/
theorem read_x (c : Dev nD) (t : Fin cfg3.N) (r : Fin 5000) (k : Fin 128) :
    iblk3 V c 0 t (ix2 r k) = V c main_v46 (ix2 (rowOf t r) k) := by
  obtain ⟨e0, e1, -⟩ := idx_facts t
  show V c main_v46 (((cfg3.win 0).blk t).view.emb (ix2 r k)) = V c main_v46 (ix2 (rowOf t r) k)
  refine congrArg (V c main_v46) (funext fun a => Fin.ext ?_)
  match a with
  | ⟨0, _⟩ => show win3_0.index t (0 : Fin 2) * 5000 + 1 * r.val = t.val * 5000 + r.val; omega
  | ⟨1, _⟩ => show win3_0.index t (1 : Fin 2) * 128 + 1 * k.val = k.val; omega

/-- The weights' block at every point is the whole matrix. -/
theorem read_w (c : Dev nD) (t : Fin cfg3.N) (k : Fin 128) (q : Fin 128) :
    iblk3 V c 1 t (ix2 k q) = V c main_arg10 (ix2 k q) := by
  obtain ⟨-, -, e2, e3, -⟩ := idx_facts t
  show V c main_arg10 (((cfg3.win 1).blk t).view.emb (ix2 k q)) = V c main_arg10 (ix2 k q)
  refine congrArg (V c main_arg10) (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- The bias row's block at every point is the whole row. -/
theorem read_b (c : Dev nD) (t : Fin cfg3.N) (q : Fin 128) :
    iblk3 V c 2 t (ix2 (0 : Fin 1) q) = V c main_v48 (ix2 (0 : Fin 1) q) := by
  obtain ⟨-, -, -, -, e4, e5, -⟩ := idx_facts t
  show V c main_v48 (((cfg3.win 2).blk t).view.emb (ix2 (0 : Fin 1) q)) = V c main_v48 (ix2 (0 : Fin 1) q)
  refine congrArg (V c main_v48) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- Entry (r, q) of the output's block at point t sits at (5000·t + r, q) of the array. -/
theorem emb_out (t : Fin cfg3.N) (r : Fin 5000) (q : Fin 128) :
    ((cfg3.win 3).blk t).view.emb (ix2 r q) = ix2 (rowOf t r) q := by
  obtain ⟨-, -, -, -, -, -, e6, e7, -⟩ := idx_facts t
  refine funext fun a => Fin.ext ?_
  match a with
  | ⟨0, _⟩ => show win3_3.index t (0 : Fin 2) * 5000 + 1 * r.val = t.val * 5000 + r.val; omega
  | ⟨1, _⟩ => show win3_3.index t (1 : Fin 2) * 128 + 1 * q.val = q.val; omega

/-- What point t writes back is block t of `linRow` of the three arrays as the region finds them. -/
theorem flushed_eq (c : Dev nD) (t : Fin cfg3.N) :
    (dat3 V c).flushed 3 t
      = ((cfg3.win 3).blk t).view.read (Elt Ideal) (linRow (V c main_v46) (V c main_arg10) (V c main_v48)) := by
  show (cfg3.win 3).cut (grid3.coords t) ((dat3 V c).after 3 t) = _
  rw [after3_3]
  unfold out3_3
  rw [View.canon_unit_zero offs]
  simp only [View.ld_unit_zero (S := S5000x128) offs, View.ld_unit_zero (S := S128x128) offs, View.ld_unit_zero (S := S1x128) offs]
  funext j
  obtain ⟨r, q, rfl⟩ : ∃ (r : Fin 5000) (q : Fin 128), j = ix2 r q := ⟨j 0, j 1, eq_ix2 j⟩
  show k3_pay1 (iblk3 V c 0 t) (iblk3 V c 1 t) (iblk3 V c 2 t) (ix2 r q)
    = linRow (V c main_v46) (V c main_arg10) (V c main_v48) (((cfg3.win 3).blk t).view.emb (ix2 r q))
  rw [emb_out t r q]
  refine (pay_apply (iblk3 V c 0 t) (iblk3 V c 1 t) (iblk3 V c 2 t) r q).trans ?_
  exact linRow_congr (iblk3 V c 0 t) (V c main_v46) (iblk3 V c 1 t) (V c main_arg10) (iblk3 V c 2 t) (V c main_v48)
    r (rowOf t r) q (fun k => read_x V c t r k) (fun k => read_w V c t k q) (read_b V c t q)

/-- An index of the array is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v49).slice (win3_3.rect t)).set ↔ _
  rw [View.set_slice_whole, Rect.mem_set_unit]
  exact Iff.rfl

/-- The blocks tile the array: row R lies in the block of point R / 5000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := rfl
  let t : Fin cfg3.N := ⟨(i 0).val / 5000, by rw [hN]; omega⟩
  obtain ⟨-, -, -, -, -, -, e6, e7, -⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region: `linRow` of the left operand, the weights and the bias row as the region finds
    them. -/
theorem final (c : Dev nD) :
    (dat3 V c).arrAt 3 cfg3.N = linRow (V c main_v46) (V c main_arg10) (V c main_v48) :=
  (dat3 V c).arrAt_eq_of_cover 3 _ (fun t _ => flushed_eq V c t) cover

/-- The same with the three arrays named. -/
theorem final_of (c : Dev nD) (X0 : (⟨S100000x128, .f32⟩ : BufTy).Contents (Elt Ideal)) (X1 : (⟨S128x128, .f32⟩ : BufTy).Contents (Elt Ideal))
    (X2 : (⟨S1x128, .f32⟩ : BufTy).Contents (Elt Ideal))
    (h0 : V c main_v46 = X0) (h1 : V c main_arg10 = X1) (h2 : V c main_v48 = X2) :
    (dat3 V c).arrAt 3 cfg3.N = linRow X0 X1 X2 := by
  subst h0 h1 h2
  exact final V c

end Cert.KernelIdeal.Region3

end
-- ==== Proof.Region4.lean ====
/-
  REGION 4: bias, rectifier and residual, row-tiled.  The region's grid has 20 points; point t takes rows
  5000·t … 5000·t + 4999 of the aggregated features and of the residual, the whole bias row, and writes the same rows
  of the output.  Its body is pointwise on its block, so every block of the output array is the block of ONE
  whole-array function — `actRes` of the three arrays as the region finds them — and the blocks tile the array.
-/
import proofs.«137977_j60172491817222_1_alg».proof.Proof.Gen.KernelIdeal.Frame
import proofs.«137977_j60172491817222_1_alg».proof.Proof.LibGcnDense

set_option maxRecDepth 16384

noncomputable section

open scoped BigOperators

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.GcnDense

variable (V : (c : Dev nD) → (b : Ref sig .tc) → Buf (Elt Ideal) ((c : Thread nD τ).loc b))

theorem offs : (![0, 0] : Fin 2 → Nat) = fun _ => 0 := funext fun a => by fin_cases a <;> rfl

/-- The body's value on a block, entry by entry: bias row added, rectified, the residual's entry added. -/
theorem pay_apply (x0 : FVec Ideal S5000x128 .f32) (x1 : FVec Ideal S1x128 .f32) (x2 : FVec Ideal S5000x128 .f32)
    (r : Fin 5000) (q : Fin 128) :
    k4_pay1 x0 x1 x2 (ix2 r q) = actRes x0 x1 x2 (ix2 r q) := by
  show addf (maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)))
    (shapeCast S5000x128 x2 shapeCasts_S5000x128_S5000x128) (ix2 r q) = _
  rw [shapeCast_self, shapeCast_self, shapeCast_self]
  exact kernelActRes_apply x0 x2 x1 broadcasts_S1x128_S5000x128 r q

/-- The printed index maps over the grid: the aggregated features, the residual and the output move down one block
    of rows per point, the bias row stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 ∧ t.val < 20 :=
  (by decide +kernel : ∀ t : Fin grid4.N, _)

/-- Row r of point t's block is row 5000·t + r of the array. -/
def rowOf (t : Fin cfg4.N) (r : Fin 5000) : Fin 100000 :=
  ⟨t.val * 5000 + r.val, by have := (idx_facts t).2.2.2.2.2.2.2.2; have := r.isLt; omega⟩

/-- The aggregated features' block at point t, read at (r, q). -/
theorem read_a (c : Dev nD) (t : Fin cfg4.N) (r : Fin 5000) (q : Fin 128) :
    iblk4 V c 0 t (ix2 r q) = V c main_v62 (ix2 (rowOf t r) q) := by
  obtain ⟨e0, e1, -⟩ := idx_facts t
  show V c main_v62 (((cfg4.win 0).blk t).view.emb (ix2 r q)) = V c main_v62 (ix2 (rowOf t r) q)
  refine congrArg (V c main_v62) (funext fun a => Fin.ext ?_)
  match a with
  | ⟨0, _⟩ => show win4_0.index t (0 : Fin 2) * 5000 + 1 * r.val = t.val * 5000 + r.val; omega
  | ⟨1, _⟩ => show win4_0.index t (1 : Fin 2) * 128 + 1 * q.val = q.val; omega

/-- The bias row's block at every point is the whole row. -/
theorem read_b (c : Dev nD) (t : Fin cfg4.N) (q : Fin 128) :
    iblk4 V c 1 t (ix2 (0 : Fin 1) q) = V c main_v63 (ix2 (0 : Fin 1) q) := by
  obtain ⟨-, -, e2, e3, -⟩ := idx_facts t
  show V c main_v63 (((cfg4.win 1).blk t).view.emb (ix2 (0 : Fin 1) q)) = V c main_v63 (ix2 (0 : Fin 1) q)
  refine congrArg (V c main_v63) (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-- The residual's block at point t, read at (r, q). -/
theorem read_r (c : Dev nD) (t : Fin cfg4.N) (r : Fin 5000) (q : Fin 128) :
    iblk4 V c 2 t (ix2 r q) = V c main_v46 (ix2 (rowOf t r) q) := by
  obtain ⟨-, -, -, -, e4, e5, -⟩ := idx_facts t
  show V c main_v46 (((cfg4.win 2).blk t).view.emb (ix2 r q)) = V c main_v46 (ix2 (rowOf t r) q)
  refine congrArg (V c main_v46) (funext fun a => Fin.ext ?_)
  match a with
  | ⟨0, _⟩ => show win4_2.index t (0 : Fin 2) * 5000 + 1 * r.val = t.val * 5000 + r.val; omega
  | ⟨1, _⟩ => show win4_2.index t (1 : Fin 2) * 128 + 1 * q.val = q.val; omega

/-- Entry (r, q) of the output's block at point t sits at (5000·t + r, q) of the array. -/
theorem emb_out (t : Fin cfg4.N) (r : Fin 5000) (q : Fin 128) :
    ((cfg4.win 3).blk t).view.emb (ix2 r q) = ix2 (rowOf t r) q := by
  obtain ⟨-, -, -, -, -, -, e6, e7, -⟩ := idx_facts t
  refine funext fun a => Fin.ext ?_
  match a with
  | ⟨0, _⟩ => show win4_3.index t (0 : Fin 2) * 5000 + 1 * r.val = t.val * 5000 + r.val; omega
  | ⟨1, _⟩ => show win4_3.index t (1 : Fin 2) * 128 + 1 * q.val = q.val; omega

/-- What point t writes back is block t of `actRes` of the three arrays as the region finds them. -/
theorem flushed_eq (c : Dev nD) (t : Fin cfg4.N) :
    (dat4 V c).flushed 3 t
      = ((cfg4.win 3).blk t).view.read (Elt Ideal) (actRes (V c main_v62) (V c main_v63) (V c main_v46)) := by
  show (cfg4.win 3).cut (grid4.coords t) ((dat4 V c).after 3 t) = _
  rw [after4_3]
  unfold out4_3
  rw [View.canon_unit_zero offs]
  simp only [View.ld_unit_zero (S := S5000x128) offs, View.ld_unit_zero (S := S1x128) offs]
  funext j
  obtain ⟨r, q, rfl⟩ : ∃ (r : Fin 5000) (q : Fin 128), j = ix2 r q := ⟨j 0, j 1, eq_ix2 j⟩
  show k4_pay1 (iblk4 V c 0 t) (iblk4 V c 1 t) (iblk4 V c 2 t) (ix2 r q)
    = actRes (V c main_v62) (V c main_v63) (V c main_v46) (((cfg4.win 3).blk t).view.emb (ix2 r q))
  rw [emb_out t r q]
  refine (pay_apply (iblk4 V c 0 t) (iblk4 V c 1 t) (iblk4 V c 2 t) r q).trans ?_
  exact actRes_congr (iblk4 V c 0 t) (iblk4 V c 2 t) (V c main_v62) (V c main_v46) (iblk4 V c 1 t) (V c main_v63)
    r (rowOf t r) q (read_a V c t r q) (read_b V c t q) (read_r V c t r q)

/-- An index of the array is in point t's block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v64).slice (win4_3.rect t)).set ↔ _
  rw [View.set_slice_whole, Rect.mem_set_unit]
  exact Iff.rfl

/-- The blocks tile the array: row R lies in the block of point R / 5000. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := rfl
  let t : Fin cfg4.N := ⟨(i 0).val / 5000, by rw [hN]; omega⟩
  obtain ⟨-, -, -, -, -, -, e6, e7, -⟩ := idx_facts t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array after the region: `actRes` of the aggregated features, the bias row and the residual as the
    region finds them. -/
theorem final (c : Dev nD) :
    (dat4 V c).arrAt 3 cfg4.N = actRes (V c main_v62) (V c main_v63) (V c main_v46) :=
  (dat4 V c).arrAt_eq_of_cover 3 _ (fun t _ => flushed_eq V c t) cover

/-- The same with the three arrays named. -/
theorem final_of (c : Dev nD) (X0 : (⟨S100000x128, .f32⟩ : BufTy).Contents (Elt Ideal)) (X1 : (⟨S1x128, .f32⟩ : BufTy).Contents (Elt Ideal))
    (X2 : (⟨S100000x128, .f32⟩ : BufTy).Contents (Elt Ideal))
    (h0 : V c main_v62 = X0) (h1 : V c main_v63 = X1) (h2 : V c main_v46 = X2) :
    (dat4 V c).arrAt 3 cfg4.N = actRes X0 X1 X2 := by
  subst h0 h1 h2
  exact final V c

end Cert.KernelIdeal.Region4

end
-- ==== Proof.Chain.lean ====
/-
  THE KERNEL PROGRAM'S BUFFERS, BOUNDARY BY BOUNDARY, AS THE NETWORK'S VALUES.

  The run's boundary contents are a fold of host stretches and regions.  Walking it forwards: the prologue leaves the
  edge lists and their normalisation; region 0 leaves the projected features `feat0`; each layer is a region computing
  the product (a dense layer with the zero bias row), a host stretch aggregating it over the edges, and a region adding
  the bias, rectifying and adding the residual — together `layer`; the epilogue reads the two heads off the last
  layer's output.  Each region's output array is its whole-array function of the arrays it finds (Region0 … Region4),
  each host stretch's buffer the named stage of the buffers it reads (HostSteps), and a buffer read long after it was
  written is unchanged in between (Keep).
-/
import proofs.«137977_j60172491817222_1_alg».proof.Proof.Gen.KernelIdeal.Frame
import proofs.«137977_j60172491817222_1_alg».proof.Proof.Keep
import proofs.«137977_j60172491817222_1_alg».proof.Proof.HostSteps
import proofs.«137977_j60172491817222_1_alg».proof.Proof.Region0
import proofs.«137977_j60172491817222_1_alg».proof.Proof.Region1
import proofs.«137977_j60172491817222_1_alg».proof.Proof.Region2
import proofs.«137977_j60172491817222_1_alg».proof.Proof.Region3
import proofs.«137977_j60172491817222_1_alg».proof.Proof.Region4

set_option maxRecDepth 16384

noncomputable section

namespace Cert.KernelIdeal.Chain

open Cert.KernelIdeal Cert.KernelIdeal.Gen Cert.KernelIdeal.Stages Cert.KernelIdeal.Keep Cert.KernelIdeal.HostSteps
open Idealize.ShloMosaic Idealize.ShloMosaic.TcCoe Idealize.SL.Sem Cert.Lib.GcnDense

variable (m : (ℓ : Loc nD τ sig) → Buf (Elt Ideal) ℓ) (ρ : Dev nD → PrngReg) (c : Dev nD)

/-! ## The prologue -/

/-- The source list: the first edge argument with the self-loops appended. -/
theorem src_at3 : W3 m ρ c (Proc.devRef .tc main_v1) = edges (m ((c : Thread nD τ).loc main_arg1)) :=
  (v1_at3 m ρ c).trans (src0 (W0 m ρ c))

/-- The destination list. -/
theorem dst_at3 : W3 m ρ c (Proc.devRef .tc main_v2) = edges (m ((c : Thread nD τ).loc main_arg2)) :=
  (v2_at3 m ρ c).trans (dst0 (W0 m ρ c))

/-- The per-node factor 1/√degree, selected where the degree is positive. -/
theorem dinv_at2 : W2 m ρ c (Proc.devRef .tc main_v10) = invSqrtDeg (edges (m ((c : Thread nD τ).loc main_arg2))) := by
  refine (dinv1 (W1 m ρ c)).trans ?_
  have h8 : W1 m ρ c (Proc.devRef .tc main_v8) = _ := pos0 (W0 m ρ c)
  have h9 : W1 m ρ c (Proc.devRef .tc main_v9) = _ := rsq0 (W0 m ρ c)
  have h0 : W1 m ρ c (Proc.devRef .tc main_cst_2) = _ := zero0 (W0 m ρ c)
  rw [h8, h9, h0]
  rfl

/-- The per-edge normalisation. -/
theorem norm_at3 : W3 m ρ c (Proc.devRef .tc main_v26) = edgeNorm (edges (m ((c : Thread nD τ).loc main_arg1))) (edges (m ((c : Thread nD τ).loc main_arg2))) := by
  refine (norm2 (W2 m ρ c)).trans ?_
  have h10 := dinv_at2 m ρ c
  have h1 : W2 m ρ c (Proc.devRef .tc main_v1) = edges (m ((c : Thread nD τ).loc main_arg1)) := (v1_at2 m ρ c).trans (src0 (W0 m ρ c))
  have h2 : W2 m ρ c (Proc.devRef .tc main_v2) = edges (m ((c : Thread nD τ).loc main_arg2)) := (v2_at2 m ρ c).trans (dst0 (W0 m ρ c))
  have h3 : W2 m ρ c (Proc.devRef .tc main_v3) = _ := (v3_at2 m ρ c).trans (ones0 (W0 m ρ c))
  rw [h10, h1, h2, h3]
  rfl

/-- The input projection's bias, laid as a row. -/
theorem brow_at3 : W3 m ρ c (Proc.devRef .tc main_v27) = biasRow (m ((c : Thread nD τ).loc main_arg7)) :=
  (brow2 (W2 m ρ c)).trans (congrArg biasRow (arg7_at2 m ρ c))

/-! ## Region 0: the input projection -/

theorem feat0_at4 : W4 m ρ c (Proc.devRef .tc main_v28) = feat0 (m ((c : Thread nD τ).loc main_arg0)) (m ((c : Thread nD τ).loc main_arg6)) (m ((c : Thread nD τ).loc main_arg7)) :=
  (W4_arr m ρ c 3).trans
    (Region0.final_of (V3 m ρ) c _ _ _ (arg0_at3 m ρ c) (arg6_at3 m ρ c) (brow_at3 m ρ c))

/-! ## The first layer -/

theorem prod1_at6 : W6 m ρ c (Proc.devRef .tc main_v31) = linRow (feat0 (m ((c : Thread nD τ).loc main_arg0)) (m ((c : Thread nD τ).loc main_arg6)) (m ((c : Thread nD τ).loc main_arg7))) (m ((c : Thread nD τ).loc main_arg8)) zeroRow :=
  (W6_arr m ρ c 3).trans
    (Region1.final_of (V5 m ρ) c _ _ _ ((v28_at5 m ρ c).trans (feat0_at4 m ρ c)) (arg8_at5 m ρ c) (zrow1 (W4 m ρ c)))

theorem agg1_at7 : W7 m ρ c (Proc.devRef .tc main_v44)
    = aggregate (linRow (feat0 (m ((c : Thread nD τ).loc main_arg0)) (m ((c : Thread nD τ).loc main_arg6)) (m ((c : Thread nD τ).loc main_arg7))) (m ((c : Thread nD τ).loc main_arg8)) zeroRow) (edges (m ((c : Thread nD τ).loc main_arg1))) (edges (m ((c : Thread nD τ).loc main_arg2))) (edgeNorm (edges (m ((c : Thread nD τ).loc main_arg1))) (edges (m ((c : Thread nD τ).loc main_arg2)))) := by
  refine (agg2 (W6 m ρ c)).trans ?_
  have h31 := prod1_at6 m ρ c
  have h1 : W6 m ρ c (Proc.devRef .tc main_v1) = edges (m ((c : Thread nD τ).loc main_arg1)) := (v1_at6 m ρ c).trans (src_at3 m ρ c)
  have h2 : W6 m ρ c (Proc.devRef .tc main_v2) = edges (m ((c : Thread nD τ).loc main_arg2)) := (v2_at6 m ρ c).trans (dst_at3 m ρ c)
  have h26 : W6 m ρ c (Proc.devRef .tc main_v26) = _ := (v26_at6 m ρ c).trans (norm_at3 m ρ c)
  rw [h31, h1, h2, h26]

theorem layer1_at8 : W8 m ρ c (Proc.devRef .tc main_v46) = layer (feat0 (m ((c : Thread nD τ).loc main_arg0)) (m ((c : Thread nD τ).loc main_arg6)) (m ((c : Thread nD τ).loc main_arg7))) (m ((c : Thread nD τ).loc main_arg8)) (m ((c : Thread nD τ).loc main_arg9)) (edges (m ((c : Thread nD τ).loc main_arg1))) (edges (m ((c : Thread nD τ).loc main_arg2))) :=
  (W8_arr m ρ c 3).trans
    (Region2.final_of (V7 m ρ) c _ _ _ (agg1_at7 m ρ c)
      ((brow2' (W6 m ρ c)).trans (congrArg biasRow (arg9_at6 m ρ c)))
      ((v28_at7 m ρ c).trans (feat0_at4 m ρ c)))

/-! ## The second layer -/

theorem prod2_at10 : W10 m ρ c (Proc.devRef .tc main_v49) = linRow (layer (feat0 (m ((c : Thread nD τ).loc main_arg0)) (m ((c : Thread nD τ).loc main_arg6)) (m ((c : Thread nD τ).loc main_arg7))) (m ((c : Thread nD τ).loc main_arg8)) (m ((c : Thread nD τ).loc main_arg9)) (edges (m ((c : Thread nD τ).loc main_arg1))) (edges (m ((c : Thread nD τ).loc main_arg2)))) (m ((c : Thread nD τ).loc main_arg10)) zeroRow :=
  (W10_arr m ρ c 3).trans
    (Region3.final_of (V9 m ρ) c _ _ _ ((v46_at9 m ρ c).trans (layer1_at8 m ρ c)) (arg10_at9 m ρ c) (zrow3 (W8 m ρ c)))

theorem agg2_at11 : W11 m ρ c (Proc.devRef .tc main_v62)
    = aggregate (linRow (layer (feat0 (m ((c : Thread nD τ).loc main_arg0)) (m ((c : Thread nD τ).loc main_arg6)) (m ((c : Thread nD τ).loc main_arg7))) (m ((c : Thread nD τ).loc main_arg8)) (m ((c : Thread nD τ).loc main_arg9)) (edges (m ((c : Thread nD τ).loc main_arg1))) (edges (m ((c : Thread nD τ).loc main_arg2)))) (m ((c : Thread nD τ).loc main_arg10)) zeroRow) (edges (m ((c : Thread nD τ).loc main_arg1))) (edges (m ((c : Thread nD τ).loc main_arg2))) (edgeNorm (edges (m ((c : Thread nD τ).loc main_arg1))) (edges (m ((c : Thread nD τ).loc main_arg2)))) := by
  refine (agg4 (W10 m ρ c)).trans ?_
  have h49 := prod2_at10 m ρ c
  have h1 : W10 m ρ c (Proc.devRef .tc main_v1) = edges (m ((c : Thread nD τ).loc main_arg1)) := (v1_at10 m ρ c).trans (src_at3 m ρ c)
  have h2 : W10 m ρ c (Proc.devRef .tc main_v2) = edges (m ((c : Thread nD τ).loc main_arg2)) := (v2_at10 m ρ c).trans (dst_at3 m ρ c)
  have h26 : W10 m ρ c (Proc.devRef .tc main_v26) = _ := (v26_at10 m ρ c).trans (norm_at3 m ρ c)
  rw [h49, h1, h2, h26]

theorem layer2_at12 : W12 m ρ c (Proc.devRef .tc main_v64) = layer (layer (feat0 (m ((c : Thread nD τ).loc main_arg0)) (m ((c : Thread nD τ).loc main_arg6)) (m ((c : Thread nD τ).loc main_arg7))) (m ((c : Thread nD τ).loc main_arg8)) (m ((c : Thread nD τ).loc main_arg9)) (edges (m ((c : Thread nD τ).loc main_arg1))) (edges (m ((c : Thread nD τ).loc main_arg2)))) (m ((c : Thread nD τ).loc main_arg10)) (m ((c : Thread nD τ).loc main_arg11)) (edges (m ((c : Thread nD τ).loc main_arg1))) (edges (m ((c : Thread nD τ).loc main_arg2))) :=
  (W12_arr m ρ c 3).trans
    (Region4.final_of (V11 m ρ) c _ _ _ (agg2_at11 m ρ c)
      ((brow4 (W10 m ρ c)).trans (congrArg biasRow (arg11_at10 m ρ c)))
      ((v46_at11 m ρ c).trans (layer1_at8 m ρ c)))

/-! ## The epilogue: the three results -/

theorem tool_at13 : W13 m ρ c (Proc.devRef .tc main_v76) = toolHead (layer (layer (feat0 (m ((c : Thread nD τ).loc main_arg0)) (m ((c : Thread nD τ).loc main_arg6)) (m ((c : Thread nD τ).loc main_arg7))) (m ((c : Thread nD τ).loc main_arg8)) (m ((c : Thread nD τ).loc main_arg9)) (edges (m ((c : Thread nD τ).loc main_arg1))) (edges (m ((c : Thread nD τ).loc main_arg2)))) (m ((c : Thread nD τ).loc main_arg10)) (m ((c : Thread nD τ).loc main_arg11)) (edges (m ((c : Thread nD τ).loc main_arg1))) (edges (m ((c : Thread nD τ).loc main_arg2)))) (m ((c : Thread nD τ).loc main_arg4)) (m ((c : Thread nD τ).loc main_arg12)) (m ((c : Thread nD τ).loc main_arg13)) := by
  refine (tool5 (W12 m ρ c)).trans ?_
  have h64 := layer2_at12 m ρ c
  have h4 := arg4_at12 m ρ c
  have h12 := arg12_at12 m ρ c
  have h13 := arg13_at12 m ρ c
  rw [h64, h4, h12, h13]

theorem query_at13 : W13 m ρ c (Proc.devRef .tc main_v88) = queryHead (layer (layer (feat0 (m ((c : Thread nD τ).loc main_arg0)) (m ((c : Thread nD τ).loc main_arg6)) (m ((c : Thread nD τ).loc main_arg7))) (m ((c : Thread nD τ).loc main_arg8)) (m ((c : Thread nD τ).loc main_arg9)) (edges (m ((c : Thread nD τ).loc main_arg1))) (edges (m ((c : Thread nD τ).loc main_arg2)))) (m ((c : Thread nD τ).loc main_arg10)) (m ((c : Thread nD τ).loc main_arg11)) (edges (m ((c : Thread nD τ).loc main_arg1))) (edges (m ((c : Thread nD τ).loc main_arg2)))) (m ((c : Thread nD τ).loc main_arg5)) (m ((c : Thread nD τ).loc main_arg12)) (m ((c : Thread nD τ).loc main_arg13)) := by
  refine (query5 (W12 m ρ c)).trans ?_
  have h64 := layer2_at12 m ρ c
  have h5 := arg5_at12 m ρ c
  have h12 := arg12_at12 m ρ c
  have h13 := arg13_at12 m ρ c
  rw [h64, h5, h12, h13]

theorem batch_at13 : W13 m ρ c (Proc.devRef .tc main_v95) = batchOf (m ((c : Thread nD τ).loc main_arg3)) (m ((c : Thread nD τ).loc main_arg4)) := by
  refine (batch5 (W12 m ρ c)).trans ?_
  have h3 := arg3_at12 m ρ c
  have h4 := arg4_at12 m ρ c
  rw [h3, h4]

end Cert.KernelIdeal.Chain

end
-- ==== Proof.RefSide.lean ====
/-
  THE REFERENCE'S RESULTS AS THE NETWORK.  The reference computes every dense layer with host operations: the input
  projection as a dot_general plus the bias broadcast twice, a layer's product as a bare dot_general, and bias,
  rectifier and residual as three elementwise operations against broadcast constants.  Entry by entry these are the
  whole-array functions `linRow` and `actRes` (a bare product being `linRow` with the zero row), and everything
  around them — edge lists, normalisation, aggregation, read-out heads — is the shared chain of host stages, met here
  only by name.
-/
import proofs.«137977_j60172491817222_1_alg».proof.Proof.RefRun
import proofs.«137977_j60172491817222_1_alg».proof.Proof.Stages

set_option maxRecDepth 16384

noncomputable section

namespace Cert.ReferenceIdeal.Bridge

open Idealize.ShloMosaic Idealize.ShloMosaic.TcCoe Idealize.SL.Sem Idealize.ShloMosaic.ValueIdx
open Cert.Lib.GcnDense Cert.KernelIdeal.Stages

/-- The zero row reads zero everywhere. -/
theorem zeroRow_apply (q : Fin 128) : zeroRow (ix2 (0 : Fin 1) q) = (0 : EReal) := by
  unfold zeroRow
  rw [shapeCast_a_1a_apply _ Cert.KernelIdeal.Gen.shapeCasts_S128_S1x128 0 q]
  refine (broadcastInDim_apply _ Cert.KernelIdeal.Gen.bcast_S_S128 _ (ix1 q) (fun a => a.elim0) (fun a => a.elim0)).trans ?_
  exact Ideal.ofBits_zero_f32

/-- The reference's input projection, in its own spelling. -/
def refFeat0 (x : FVec Ideal Cert.ReferenceIdeal.S100000x768 .f32) (w : FVec Ideal Cert.ReferenceIdeal.S768x128 .f32)
    (b : FVec Ideal Cert.ReferenceIdeal.S128 .f32) : FVec Ideal Cert.ReferenceIdeal.S100000x128 .f32 :=
  addf (Host.dotGeneral Cert.ReferenceIdeal.dot_S100000x768_S768x128_S100000x128_1_0_0_1_n_n none x w)
    (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b))

/-- One layer of the reference, in its own spelling, around the shared aggregation. -/
def refLayer (h : FVec Ideal Cert.ReferenceIdeal.S100000x128 .f32) (w : FVec Ideal Cert.ReferenceIdeal.S128x128 .f32)
    (b : FVec Ideal Cert.ReferenceIdeal.S128 .f32) (s d : IVec Cert.ReferenceIdeal.S700000 32) :
    FVec Ideal Cert.ReferenceIdeal.S100000x128 .f32 :=
  addf
    (maximumf
      (addf (aggregate (Host.dotGeneral Cert.ReferenceIdeal.dot_S100000x128_S128x128_S100000x128_1_0_0_1_n_n none h w) s d (edgeNorm s d))
        (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b)))
      (broadcastInDim Cert.ReferenceIdeal.S100000x128 ![] Cert.ReferenceIdeal.Gen.bcast_S_S100000x128 (constant (F := Ideal) Cert.ReferenceIdeal.S_ .f32 0x00000000#32)))
    h

theorem refFeat0_eq (x : FVec Ideal Cert.ReferenceIdeal.S100000x768 .f32) (w : FVec Ideal Cert.ReferenceIdeal.S768x128 .f32)
    (b : FVec Ideal Cert.ReferenceIdeal.S128 .f32) : refFeat0 x w b = feat0 x w b :=
  hostLin_eq Cert.ReferenceIdeal.dot_S100000x768_S768x128_S100000x128_1_0_0_1_n_n rfl rfl rfl rfl rfl rfl x w b
    Cert.ReferenceIdeal.Gen.bcast_S128_S1x128_1 Cert.ReferenceIdeal.Gen.bcast_S1x128_S100000x128_0_1 Cert.KernelIdeal.Gen.shapeCasts_S128_S1x128

theorem refLayer_eq (h : FVec Ideal Cert.ReferenceIdeal.S100000x128 .f32) (w : FVec Ideal Cert.ReferenceIdeal.S128x128 .f32)
    (b : FVec Ideal Cert.ReferenceIdeal.S128 .f32) (s d : IVec Cert.ReferenceIdeal.S700000 32) :
    refLayer h w b s d = layer h w b s d := by
  unfold refLayer layer
  rw [hostDot_eq Cert.ReferenceIdeal.dot_S100000x128_S128x128_S100000x128_1_0_0_1_n_n rfl rfl rfl rfl rfl rfl h w zeroRow zeroRow_apply]
  exact hostActRes_eq _ h b Cert.ReferenceIdeal.Gen.bcast_S128_S1x128_1 Cert.ReferenceIdeal.Gen.bcast_S1x128_S100000x128_0_1 Cert.ReferenceIdeal.Gen.bcast_S_S100000x128
    Cert.KernelIdeal.Gen.shapeCasts_S128_S1x128

open Cert.ReferenceIdeal Cert.ReferenceIdeal.Gen in
/-- The reference's three results, from a memory `m`: the two read-out heads of the two-layer network over the
    arguments, and the tool nodes' graph numbers. -/
theorem results (m : (ℓ : Loc nD τ sig) → Buf (Elt Ideal) ℓ) (c : Dev nD) :
    Cert.ReferenceIdeal.ValueP.res_main_v80 m c
        = toolHead (layer (layer (feat0 (m ((c.tc : Thread nD τ).loc main_arg0)) (m ((c.tc : Thread nD τ).loc main_arg6)) (m ((c.tc : Thread nD τ).loc main_arg7)))
              (m ((c.tc : Thread nD τ).loc main_arg8)) (m ((c.tc : Thread nD τ).loc main_arg9)) (edges (m ((c.tc : Thread nD τ).loc main_arg1))) (edges (m ((c.tc : Thread nD τ).loc main_arg2))))
            (m ((c.tc : Thread nD τ).loc main_arg10)) (m ((c.tc : Thread nD τ).loc main_arg11)) (edges (m ((c.tc : Thread nD τ).loc main_arg1))) (edges (m ((c.tc : Thread nD τ).loc main_arg2))))
          (m ((c.tc : Thread nD τ).loc main_arg4)) (m ((c.tc : Thread nD τ).loc main_arg12)) (m ((c.tc : Thread nD τ).loc main_arg13))
      ∧ Cert.ReferenceIdeal.ValueP.res_main_v92 m c
        = queryHead (layer (layer (feat0 (m ((c.tc : Thread nD τ).loc main_arg0)) (m ((c.tc : Thread nD τ).loc main_arg6)) (m ((c.tc : Thread nD τ).loc main_arg7)))
              (m ((c.tc : Thread nD τ).loc main_arg8)) (m ((c.tc : Thread nD τ).loc main_arg9)) (edges (m ((c.tc : Thread nD τ).loc main_arg1))) (edges (m ((c.tc : Thread nD τ).loc main_arg2))))
            (m ((c.tc : Thread nD τ).loc main_arg10)) (m ((c.tc : Thread nD τ).loc main_arg11)) (edges (m ((c.tc : Thread nD τ).loc main_arg1))) (edges (m ((c.tc : Thread nD τ).loc main_arg2))))
          (m ((c.tc : Thread nD τ).loc main_arg5)) (m ((c.tc : Thread nD τ).loc main_arg12)) (m ((c.tc : Thread nD τ).loc main_arg13)) := by
  simp only [← refLayer_eq, ← refFeat0_eq]
  exact ⟨by unfold Cert.ReferenceIdeal.ValueP.res_main_v80; rfl, by unfold Cert.ReferenceIdeal.ValueP.res_main_v92; rfl⟩

end Cert.ReferenceIdeal.Bridge

end
-- ==== Proof.lean ====
/-
  Kernel and reference compute the same two-layer graph network with residuals and two read-out heads.

  Both programs build the graph identically on the host: the edge lists with a self-loop per node, the symmetric
  normalisation 1/√deg(src) · 1/√deg(dst), the aggregation of messages over the edges (a gather, a scaling, a
  scatter-add), and the read-out of the tool and query nodes.  They differ in the dense parts only.  The kernel program
  computes the input projection x·W + b, each layer's product h·W, and each layer's  max (agg + b) 0 + h  in five
  row-tiled pipelined regions, its matrix products on operands narrowed to bf16 and its bias-free products with a
  bias row of zeros; the reference computes them as host operations.  On the extended reals a change of float format
  is the identity, a matmul into a zero accumulator and a dot_general are the same sum in the same order, and
  x + 0 = x for every x, infinite ones included — so each region's output array, assembled from its twenty blocks of
  5000 rows, is entry by entry the reference's array, and the shared host stages carry the equality through by
  congruence.  No algebraic law beyond x + 0 = x is used, and so the precondition (finite inputs) is never opened.

  The three frames are the generated ones (the reference's is its run with the results dropped); `preserves` is
  trivial, the ideal pass having rewritten nothing.
-/
import proofs.«137977_j60172491817222_1_alg».proof.Defs
import proofs.«137977_j60172491817222_1_alg».proof.Proof.Gen.Kernel
import proofs.«137977_j60172491817222_1_alg».proof.Proof.Gen.Kernel.Frame
import proofs.«137977_j60172491817222_1_alg».proof.Proof.Gen.KernelIdeal
import proofs.«137977_j60172491817222_1_alg».proof.Proof.Gen.KernelIdeal.Frame
import proofs.«137977_j60172491817222_1_alg».proof.Proof.Gen.ReferenceIdeal
import proofs.«137977_j60172491817222_1_alg».proof.Proof.Gen.Pre_finite_inputs
import proofs.«137977_j60172491817222_1_alg».proof.Proof.KernelRun
import proofs.«137977_j60172491817222_1_alg».proof.Proof.Chain
import proofs.«137977_j60172491817222_1_alg».proof.Proof.RefRun
import proofs.«137977_j60172491817222_1_alg».proof.Proof.RefSide
import Idealize.ShloMosaic.Adequacy
import Idealize.ShloMosaic.Init

set_option maxRecDepth 16384

noncomputable section

namespace Cert.Proof

open Idealize.ShloMosaic Idealize.SL.Sem Cert.KernelIdeal.Stages

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- Both programs end with the two heads of the two-layer network over the arguments, and the tool nodes' graph
    numbers: the kernel program by its boundary contents read forwards, the reference by its composed term, from
    memories that agree on the arguments. -/
theorem algebraic : Cert.algebraic_KernelIdeal_ReferenceIdeal := by
  intro m ρ m' ρ' _ hagree
  refine ⟨fun c => toolHead (layer (layer (feat0 (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (edges (m ((c.tc : Thread Cert.KernelIdeal.nD Cert.KernelIdeal.τ).loc Cert.KernelIdeal.main_arg1))) (edges (m ((c.tc : Thread Cert.KernelIdeal.nD Cert.KernelIdeal.τ).loc Cert.KernelIdeal.main_arg2)))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (edges (m ((c.tc : Thread Cert.KernelIdeal.nD Cert.KernelIdeal.τ).loc Cert.KernelIdeal.main_arg1))) (edges (m ((c.tc : Thread Cert.KernelIdeal.nD Cert.KernelIdeal.τ).loc Cert.KernelIdeal.main_arg2)))) (m ((c.tc : Thread Cert.KernelIdeal.nD Cert.KernelIdeal.τ).loc Cert.KernelIdeal.main_arg4)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => queryHead (layer (layer (feat0 (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (edges (m ((c.tc : Thread Cert.KernelIdeal.nD Cert.KernelIdeal.τ).loc Cert.KernelIdeal.main_arg1))) (edges (m ((c.tc : Thread Cert.KernelIdeal.nD Cert.KernelIdeal.τ).loc Cert.KernelIdeal.main_arg2)))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (edges (m ((c.tc : Thread Cert.KernelIdeal.nD Cert.KernelIdeal.τ).loc Cert.KernelIdeal.main_arg1))) (edges (m ((c.tc : Thread Cert.KernelIdeal.nD Cert.KernelIdeal.τ).loc Cert.KernelIdeal.main_arg2)))) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => batchOf (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.tool_at13 m ρ c),
        (h c).2.1.trans (Cert.KernelIdeal.Chain.query_at13 m ρ c),
        (h c).2.2.1.trans (Cert.KernelIdeal.Chain.batch_at13 m ρ c), (h c).2.2.2⟩)
      (Cert.KernelIdeal.Whole.run (F := Ideal) m ρ)
  · refine (θ_run Cert.ReferenceIdeal.defs _ _).mono (fun r h c => ?_) (Cert.ReferenceIdeal.ValueP.run (F := Ideal) m' ρ')
    obtain ⟨e0, e1, e2, e3, e4, e5, e6, e7, e8, e9, e10, e11, e12, e13⟩ := hagree c
    obtain ⟨r0, r1⟩ := Cert.ReferenceIdeal.Bridge.results m' c
    refine ⟨(h c).1.trans ?_, (h c).2.1.trans ?_, (h c).2.2.1.trans ?_, (h c).2.2.2⟩
    · rw [r0, e0, e1, e2, e4, e6, e7, e8, e9, e10, e11, e12, e13]
    · rw [r1, e0, e1, e2, e5, e6, e7, e8, e9, e10, e11, e12, e13]
    · rw [e3, e4]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
